-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S256x64 .f32) (main_arg14 : FVec F S256x64 .f32) (main_arg15 : FVec F S64 .f32) (main_arg16 : FVec F S128x1 .f32) (main_arg17 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x64 .f32 := Host.absf main_arg13
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S256x64 .f32 := Host.absf main_arg14
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S256x256 .f32) (main_arg11 : FVec F S256x256 .f32) (main_arg12 : FVec F S256 .f32) (main_arg13 : FVec F S256x64 .f32) (main_arg14 : FVec F S256x64 .f32) (main_arg15 : FVec F S64 .f32) (main_arg16 : FVec F S128x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_v48 main_v49 main_v50

def fn_part1 {F : FTy → Type} [FloatOps F] (main_arg6 : FVec F S256 .f32) (main_arg7 : FVec F S256x64 .f32) (main_arg8 : FVec F S256x64 .f32) (main_arg9 : FVec F S64 .f32) (main_arg10 : FVec F S256x256 .f32) (main_arg11 : FVec F S256x256 .f32) (main_arg12 : FVec F S256 .f32) (main_arg13 : FVec F S256x64 .f32) (main_arg14 : FVec F S256x64 .f32) (main_arg15 : FVec F S64 .f32) (main_arg16 : FVec F S128x1 .f32) (main_arg17 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x256 .f32) (main_arg1 : FVec F S50000x256 .f32) (main_arg2 : IVec S2x800000 32) (main_arg3 : IVec S2x800000 32) (main_arg4 : FVec F S256x256 .f32) (main_arg5 : FVec F S256x256 .f32) (main_arg6 : FVec F S256 .f32) (main_arg7 : FVec F S256x64 .f32) (main_arg8 : FVec F S256x64 .f32) (main_arg9 : FVec F S64 .f32) (main_arg10 : FVec F S256x256 .f32) (main_arg11 : FVec F S256x256 .f32) (main_arg12 : FVec F S256 .f32) (main_arg13 : FVec F S256x64 .f32) (main_arg14 : FVec F S256x64 .f32) (main_arg15 : FVec F S64 .f32) (main_arg16 : FVec F S128x1 .f32) (main_arg17 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩
abbrev S1x64 : Shape := ⟨2, ![1, 64]⟩
abbrev S50000x64 : Shape := ⟨2, ![50000, 64]⟩
abbrev S2000x64 : Shape := ⟨2, ![2000, 64]⟩
abbrev S64x1 : Shape := ⟨2, ![64, 1]⟩
abbrev S1x1 : Shape := ⟨2, ![1, 1]⟩
abbrev S2000x1 : Shape := ⟨2, ![2000, 1]⟩

abbrev nBuf : Space → Nat
  | .hbm => 138
  | .vmem => 45
  | .smem => 0
  | _ => 0

abbrev hbmTy0_0 (i : Nat) : BufTy := match i % 128 with
  | 0 => ⟨S50000x256, .f32⟩
  | 1 => ⟨S50000x256, .f32⟩
  | 2 => ⟨S2x800000, .i32⟩
  | 3 => ⟨S2x800000, .i32⟩
  | 4 => ⟨S256x256, .f32⟩
  | 5 => ⟨S256x256, .f32⟩
  | 6 => ⟨S256, .f32⟩
  | 7 => ⟨S256x64, .f32⟩
  | 8 => ⟨S256x64, .f32⟩
  | 9 => ⟨S64, .f32⟩
  | 10 => ⟨S256x256, .f32⟩
  | 11 => ⟨S256x256, .f32⟩
  | 12 => ⟨S256, .f32⟩
  | 13 => ⟨S256x64, .f32⟩
  | 14 => ⟨S256x64, .f32⟩
  | 15 => ⟨S64, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x256, .f32⟩
  | 50 => ⟨S50000x256, .f32⟩
  | 51 => ⟨S1x256, .f32⟩
  | 52 => ⟨S50000x256, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S_, .f32⟩
  | 63 => ⟨S50000x256, .f32⟩
  | 64 => ⟨S800000x1, .i32⟩
  | 65 => ⟨S50000x256, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x256, .f32⟩
  | 77 => ⟨S50000x256, .f32⟩
  | 78 => ⟨S1x64, .f32⟩
  | 79 => ⟨S50000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x256, .f32⟩
  | 89 => ⟨S_, .f32⟩
  | 90 => ⟨S50000x256, .f32⟩
  | 91 => ⟨S800000x1, .i32⟩
  | 92 => ⟨S50000x256, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x256, .f32⟩
  | 104 => ⟨S50000x256, .f32⟩
  | 105 => ⟨S1x256, .f32⟩
  | 106 => ⟨S50000x256, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x256, .f32⟩
  | 116 => ⟨S_, .f32⟩
  | 117 => ⟨S50000x256, .f32⟩
  | 118 => ⟨S800000x1, .i32⟩
  | 119 => ⟨S50000x256, .f32⟩
  | 120 => ⟨S_, .f32⟩
  | 121 => ⟨S800000, .f32⟩
  | 122 => ⟨S_, .f32⟩
  | 123 => ⟨S50000, .f32⟩
  | 124 => ⟨S800000x1, .i32⟩
  | 125 => ⟨S50000, .f32⟩
  | 126 => ⟨S_, .f32⟩
  | 127 => ⟨S50000, .f32⟩
  | _ => ⟨S50000x256, .f32⟩

abbrev hbmTy0_1 (i : Nat) : BufTy := match i % 128 with
  | 0 => ⟨S50000, .f32⟩
  | 1 => ⟨S50000x1, .f32⟩
  | 2 => ⟨S50000x256, .f32⟩
  | 3 => ⟨S50000x256, .f32⟩
  | 4 => ⟨S1x64, .f32⟩
  | 5 => ⟨S50000x64, .f32⟩
  | 6 => ⟨S64x1, .f32⟩
  | 7 => ⟨S64x1, .f32⟩
  | 8 => ⟨S1x1, .f32⟩
  | 9 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .f32⟩
  | .local _ .vmem, ⟨14, _⟩ => ⟨S256x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x64, .f32⟩
  | .local _ .vmem, ⟨32, _⟩ => ⟨S256x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S64x1, .f32⟩
  | .local _ .vmem, ⟨41, _⟩ => ⟨S64x1, .f32⟩
  | .local _ .vmem, ⟨42, _⟩ => ⟨S1x1, .f32⟩
  | .local _ .vmem, ⟨43, _⟩ => ⟨S2000x1, .f32⟩
  | .local _ .vmem, ⟨44, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_c_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_18 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_cst_20 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_21 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S128x1_S64x1_0_0 : S128x1.Slices ![0, 0] S64x1
  slices_S128x1_S64x1_64_0 : S128x1.Slices ![64, 0] S64x1
  shapeCasts_S1_S1x1 : S1.ShapeCasts S1x1
  shapeCasts_S2000x64_S2000x64 : S2000x64.ShapeCasts S2000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .f32 = 32 ∨ (Rect.block (s := S256x64) S256x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S50000x1.size a
  hwx4_5 : ∀ i : grid4.Coords, EltTy.bits .f32 = 32 ∨ (Rect.block (s := S50000x1) S2000x1.size (cc4_transform_5 i) (hinb4_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v26) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v89) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S256x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S2000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S50000x64 : Shape := ⟨2, ![50000, 64]⟩
abbrev S1x64 : Shape := ⟨2, ![1, 64]⟩
abbrev S50000x128 : Shape := ⟨2, ![50000, 128]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S50000x256, .f32⟩
  | 1 => ⟨S50000x256, .f32⟩
  | 2 => ⟨S2x800000, .i32⟩
  | 3 => ⟨S2x800000, .i32⟩
  | 4 => ⟨S256x256, .f32⟩
  | 5 => ⟨S256x256, .f32⟩
  | 6 => ⟨S256, .f32⟩
  | 7 => ⟨S256x64, .f32⟩
  | 8 => ⟨S256x64, .f32⟩
  | 9 => ⟨S64, .f32⟩
  | 10 => ⟨S256x256, .f32⟩
  | 11 => ⟨S256x256, .f32⟩
  | 12 => ⟨S256, .f32⟩
  | 13 => ⟨S256x64, .f32⟩
  | 14 => ⟨S256x64, .f32⟩
  | 15 => ⟨S64, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x256, .f32⟩
  | 50 => ⟨S50000x256, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x256, .f32⟩
  | 69 => ⟨S_, .f32⟩
  | 70 => ⟨S50000x256, .f32⟩
  | 71 => ⟨S800000x1, .i32⟩
  | 72 => ⟨S50000x256, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x256, .f32⟩
  | 84 => ⟨S50000x256, .f32⟩
  | 85 => ⟨S50000x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x256, .f32⟩
  | 115 => ⟨S50000x256, .f32⟩
  | 116 => ⟨S50000x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .i32⟩
  | 126 => ⟨S800000, .i32⟩
  | 127 => ⟨S800000, .i1⟩
  | _ => ⟨S50000x256, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x256, .f32⟩
  | 6 => ⟨S_, .f32⟩
  | 7 => ⟨S50000x256, .f32⟩
  | 8 => ⟨S800000x1, .i32⟩
  | 9 => ⟨S50000x256, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x256, .f32⟩
  | 21 => ⟨S50000x256, .f32⟩
  | 22 => ⟨S50000x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S50000x128, .f32⟩
  | 29 => ⟨S50000x1, .f32⟩
  | 30 => ⟨S1x1, .f32⟩
  | 31 => ⟨S50000x1, .f32⟩
  | 32 => ⟨S50000x1, .f32⟩
  | 33 => ⟨S50000x1, .f32⟩
  | 34 => ⟨S50000x1, .f32⟩
  | 35 => ⟨S_, .f32⟩
  | 36 => ⟨S50000x1, .f32⟩
  | 37 => ⟨S50000x1, .f32⟩
  | 38 => ⟨S_, .f32⟩
  | 39 => ⟨S50000x1, .f32⟩
  | 40 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_c_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call1_cst : Ref sig .tc := ⟨.hbm, 122, rfl⟩
abbrev main_call1_v0 : Ref sig .tc := ⟨.hbm, 123, rfl⟩
abbrev main_v84 : Ref sig .tc := ⟨.hbm, 124, rfl⟩
abbrev main_c_16 : Ref sig .tc := ⟨.hbm, 125, rfl⟩
abbrev main_v85 : Ref sig .tc := ⟨.hbm, 126, rfl⟩
abbrev main_v86 : Ref sig .tc := ⟨.hbm, 127, rfl⟩
abbrev main_c_17 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_cst_23 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  dot_S50000x128_S128x1_S50000x1_1_0_0_1_n_n_wf : DotDims.WF S50000x128 S128x1 S50000x1 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its result named: every weakly fair execution of @main terminates, nothing faulting,
  with the result array `main_v95` at what the last segment boundary's contents hold there (`W10`: the fold of the
  five host stretches and the five regions' write-backs from the launch memory) and the argument arrays as launched.
  The ten segments, their chaining and the launch are the generated frame's; only the final reading differs: besides
  the arguments, the result's buffer is read against the last thread state.
-/
import proofs.«145416_j38774964748344_1_alg».proof.Proof.Gen.KernelIdeal.Frame

set_option maxRecDepth 16384

noncomputable section

namespace Cert.Hand.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read at the last boundary's contents. -/
theorem run_named : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.Hand.KernelRun

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibLinLayer.lean ====
/-
  One linear layer of a graph convolution (agg · W_rel + bias row + x · W_root, optionally rectified), entry by entry, on
  the extended reals, for any extents; a block body's two `tpu.matmul`s into zero accumulators (`body_lin`,
  `body_linRelu`) and the host's two `dot_general`s (`host_lin`, `host_relu`) are both that layer, rows of the layer are
  the layer of the rows (`lin_congr`, `linRelu_congr`), and a `[C] → [1, C]` reshape equals the broadcast along axis 1
  (`row_two_ways`). Uses the plain matrix product of `LibPlainDot.lean`.

  For node features `x : [M, K]`, their neighbourhood sums `agg : [M, K]`, two weight matrices `wrel, wroot : [K, C]` and a
  bias row `b : [1, C]`, the layer's entry `(p, q)` is
      (∑ k, agg[p,k] · wrel[k,q]) + b[0,q] + (∑ k, x[p,k] · wroot[k,q]),
  and the rectified layer is its maximum with 0. Two computations produce it: a block of rows by two `tpu.matmul`s into
  zero accumulators (the operands passed through a narrower float format, which is the identity on exact values), and the
  host's two `dot_general`s. Rows of the layer depend only on the same rows of `agg` and `x`, so a block of rows of the
  layer is the layer of the blocks of rows (`lin_congr`).
-/
import Idealize.ShloMosaic.Lib.ValueIdx
import Idealize.ShloMosaic.Lib.Pipeline.Value
import Idealize.ShloMosaic.PureOps.Ideal.Laws
import proofs.«145416_j38774964748344_1_alg».proof.Proof.LibPlainDot

noncomputable section

namespace Cert.Lib.LinLayer

open Idealize.ShloMosaic Idealize.ShloMosaic.ValueIdx Cert.Lib.PlainDot

/-- An `a × b` array of extended reals. -/
abbrev Arr (a b : ℕ) : Type := (⟨2, ![a, b]⟩ : Shape).Idx → EReal

/-- The layer: `agg · wrel + b + x · wroot`, entry by entry. -/
def lin {M K C : ℕ} (agg x : Arr M K) (wrel wroot : Arr K C) (b : Arr 1 C) : Arr M C :=
  fun j => rowsByCols agg wrel j + b (ix2 (0 : Fin 1) (j 1)) + rowsByCols x wroot j

/-- The rectified layer: the layer's entries clipped below at zero. -/
def linRelu {M K C : ℕ} (agg x : Arr M K) (wrel wroot : Arr K C) (b : Arr 1 C) : Arr M C :=
  fun j => max (lin agg x wrel wroot b j) 0

/-- Entry `j'` of the layer of `(a, x', …)` is entry `j` of the layer of `(A, X, …)` when row `j' 0` of `a`, `x'` is row
    `j 0` of `A`, `X`, column `j' 1` of the weights is column `j 1`, and the bias agrees at those columns. -/
theorem lin_congr {M M' K C C' : ℕ} (A X : Arr M K) (Wr Wo : Arr K C) (B : Arr 1 C)
    (a x' : Arr M' K) (wr wo : Arr K C') (b : Arr 1 C') (j' : (⟨2, ![M', C']⟩ : Shape).Idx) (j : (⟨2, ![M, C]⟩ : Shape).Idx)
    (ha : ∀ k : Fin K, a (ix2 (j' 0) k) = A (ix2 (j 0) k)) (hx : ∀ k : Fin K, x' (ix2 (j' 0) k) = X (ix2 (j 0) k))
    (hwr : ∀ k : Fin K, wr (ix2 k (j' 1)) = Wr (ix2 k (j 1))) (hwo : ∀ k : Fin K, wo (ix2 k (j' 1)) = Wo (ix2 k (j 1)))
    (hb : b (ix2 (0 : Fin 1) (j' 1)) = B (ix2 (0 : Fin 1) (j 1))) :
    lin a x' wr wo b j' = lin A X Wr Wo B j := by
  unfold lin
  rw [rowsByCols_congr A Wr a wr j' j ha hwr, rowsByCols_congr X Wo x' wo j' j hx hwo, hb]

theorem linRelu_congr {M M' K C C' : ℕ} (A X : Arr M K) (Wr Wo : Arr K C) (B : Arr 1 C)
    (a x' : Arr M' K) (wr wo : Arr K C') (b : Arr 1 C') (j' : (⟨2, ![M', C']⟩ : Shape).Idx) (j : (⟨2, ![M, C]⟩ : Shape).Idx)
    (ha : ∀ k : Fin K, a (ix2 (j' 0) k) = A (ix2 (j 0) k)) (hx : ∀ k : Fin K, x' (ix2 (j' 0) k) = X (ix2 (j 0) k))
    (hwr : ∀ k : Fin K, wr (ix2 k (j' 1)) = Wr (ix2 k (j 1))) (hwo : ∀ k : Fin K, wo (ix2 k (j' 1)) = Wo (ix2 k (j 1)))
    (hb : b (ix2 (0 : Fin 1) (j' 1)) = B (ix2 (0 : Fin 1) (j 1))) :
    linRelu a x' wr wo b j' = linRelu A X Wr Wo B j := by
  unfold linRelu
  rw [lin_congr A X Wr Wo B a x' wr wo b j' j ha hx hwr hwo hb]

/-- The bias row spread over the rows of a block reads, at `(p, q)`, its entry `(0, q)`. -/
theorem spread_row {M C : ℕ} (b : Arr 1 C) (hb : (⟨2, ![1, C]⟩ : Shape).Broadcasts ⟨2, ![M, C]⟩) (j : (⟨2, ![M, C]⟩ : Shape).Idx) :
    broadcastTo ⟨2, ![M, C]⟩ b hb j = b (ix2 (0 : Fin 1) (j 1)) :=
  broadcastTo_apply b hb j (ix2 (0 : Fin 1) (j 1)) (fun a => by
    match a with
    | ⟨0, _⟩ => show 0 = if (1 : ℕ) = 1 then 0 else _; rw [if_pos rfl]
    | ⟨1, _⟩ =>
      show (j 1).val = if C = 1 then 0 else (j 1).val
      split
      · have hj : (j 1).val < C := (j 1).isLt; omega
      · rfl)

/-- The block body's arithmetic: two `tpu.matmul`s into zero accumulators of operands passed through a narrower format,
    the bias row spread over the rows between them, is the layer. -/
theorem body_lin {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .f32) (b : FVec Ideal ⟨2, ![1, C]⟩ .f32) :
    addf (addf (matmul d none (truncf .bf16 agg hlt) (truncf .bf16 wrel hlt) (constant (F := Ideal) ⟨2, ![M, C]⟩ .f32 0x00000000#32))
          (broadcastTo ⟨2, ![M, C]⟩ b hb))
        (matmul d none (truncf .bf16 x hlt) (truncf .bf16 wroot hlt) (constant (F := Ideal) ⟨2, ![M, C]⟩ .f32 0x00000000#32))
      = lin agg x wrel wroot b := by
  funext j
  rw [addf_apply, addf_apply]
  show FloatOps.matmul d none (truncf .bf16 agg hlt) (truncf .bf16 wrel hlt) (constant (F := Ideal) ⟨2, ![M, C]⟩ .f32 0x00000000#32) j
      + broadcastTo ⟨2, ![M, C]⟩ b hb j
      + FloatOps.matmul d none (truncf .bf16 x hlt) (truncf .bf16 wroot hlt) (constant (F := Ideal) ⟨2, ![M, C]⟩ .f32 0x00000000#32) j = _
  rw [matmul_zero_eq d hd none (truncf .bf16 agg hlt) (truncf .bf16 wrel hlt),
    matmul_zero_eq d hd none (truncf .bf16 x hlt) (truncf .bf16 wroot hlt), spread_row b hb j]
  rfl

/-- The same followed by a maximum with the zero word spread over the block: the rectified layer. -/
theorem body_linRelu {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .f32) (b : FVec Ideal ⟨2, ![1, C]⟩ .f32) :
    maximumf (addf (addf (matmul d none (truncf .bf16 agg hlt) (truncf .bf16 wrel hlt) (constant (F := Ideal) ⟨2, ![M, C]⟩ .f32 0x00000000#32))
          (broadcastTo ⟨2, ![M, C]⟩ b hb))
        (matmul d none (truncf .bf16 x hlt) (truncf .bf16 wroot hlt) (constant (F := Ideal) ⟨2, ![M, C]⟩ .f32 0x00000000#32)))
        (broadcast ⟨2, ![M, C]⟩ (Scalar.ofBits (F := Ideal) .f32 0x00000000#32))
      = linRelu agg x wrel wroot b := by
  rw [body_lin d hd hb hlt agg x wrel wroot b]
  funext j
  rw [maximumf_apply, broadcast_apply]
  show max _ (Ideal.ofBits .f32 0x00000000#32) = _
  rw [Ideal.ofBits_zero_f32]
  rfl

/-- The host's arithmetic: two `dot_general`s with the bias row spread over the rows between them, is the layer. -/
theorem host_lin {M K C : ℕ} (d : DotDims ⟨2, ![M, K]⟩ ⟨2, ![K, C]⟩ ⟨2, ![M, C]⟩) (hd : d = DotDims.plain M K C)
    (h : (⟨2, ![1, C]⟩ : Shape).BroadcastsInDim ⟨2, ![M, C]⟩ ![0, 1])
    (agg x : FVec Ideal ⟨2, ![M, K]⟩ .f32) (wrel wroot : FVec Ideal ⟨2, ![K, C]⟩ .f32) (b : FVec Ideal ⟨2, ![1, C]⟩ .f32) :
    addf (addf (Host.dotGeneral d none agg wrel) (broadcastInDim ⟨2, ![M, C]⟩ ![0, 1] h b)) (Host.dotGeneral d none x wroot)
      = lin agg x wrel wroot b := by
  funext j
  rw [addf_apply, addf_apply]
  show FloatOps.dotGeneral d none .single agg wrel j + broadcastInDim ⟨2, ![M, C]⟩ ![0, 1] h b j
      + FloatOps.dotGeneral d none .single x wroot j = _
  rw [dotGeneral_eq d hd none .single agg wrel, dotGeneral_eq d hd none .single x wroot,
    broadcastInDim_apply ![0, 1] h b j (ix2 (0 : Fin 1) (j 1)) (fun a => by
      match a with
      | ⟨0, _⟩ => show 0 = if (1 : ℕ) = 1 then 0 else _; rw [if_pos rfl]
      | ⟨1, _⟩ =>
        show (j 1).val = if C = 1 then 0 else (j 1).val
        split
        · have hj : (j 1).val < C := (j 1).isLt; omega
        · rfl)]
  rfl

/-- The host's rectifier: a maximum with the zero word spread over the array (a scalar broadcast) clips at zero. -/
theorem host_relu {M C : ℕ} (h : (⟨0, ![]⟩ : Shape).BroadcastsInDim ⟨2, ![M, C]⟩ ![]) (v : FVec Ideal ⟨2, ![M, C]⟩ .f32) :
    maximumf v (broadcastInDim ⟨2, ![M, C]⟩ ![] h (constant (F := Ideal) ⟨0, ![]⟩ .f32 0x00000000#32)) = fun j => max (v j) 0 := by
  funext j
  rw [maximumf_apply, broadcastInDim_apply ![] h _ j ix0 (fun a => a.elim0), constant_apply, Ideal.ofBits_zero_f32]

/-- A row vector made from a vector by a reshape `[C] → [1, C]` and by a `broadcast_in_dim` along axis 1 are one array. -/
theorem row_two_ways {C : ℕ} {α : Type} (b : (⟨1, ![C]⟩ : Shape).Idx → α) (hs : (⟨1, ![C]⟩ : Shape).ShapeCasts ⟨2, ![1, C]⟩)
    (hbc : (⟨1, ![C]⟩ : Shape).BroadcastsInDim ⟨2, ![1, C]⟩ ![1]) :
    shapeCast ⟨2, ![1, C]⟩ b hs = broadcastInDim ⟨2, ![1, C]⟩ ![1] hbc b := by
  funext i
  rw [shapeCast_apply b hs i (ix1 (i 1)) (by
        rw [Shape.rowMajor_val_one, Shape.rowMajor_val_two]
        have h0 : (i 0).val < 1 := (i 0).isLt
        show (i 1).val = (i 0).val * C + (i 1).val
        have : (i 0).val = 0 := by omega
        rw [this, Nat.zero_mul, Nat.zero_add]),
    broadcastInDim_apply ![1] hbc b i (ix1 (i 1)) (fun a => by
      match a with
      | ⟨0, _⟩ =>
        show (i 1).val = if C = 1 then 0 else (i 1).val
        split
        · have hi : (i 1).val < C := (i 1).isLt; omega
        · rfl)]

end Cert.Lib.LinLayer

end
-- ==== Proof.LibSigRows.lean ====
/-
  A squashed layer output `sigmoid (agg + b)` on the extended reals, and its two spellings.

  For an [n, c] array `agg` and a [1, c] row `b`, `sigRows agg b` is the array whose entry `(p, q)` is
  `logistic (agg[p,q] + b[0,q])`, where `logistic x = 1 / (1 + e^(-x))` with `logistic ⊥ = 0` and `logistic ⊤ = 1`
  (a kernel's `tpu.logistic` of a block plus a bias row broadcast over the block's rows reads so entry by entry).
  A host program that spreads the bias VECTOR over the rows ([c] → [1, c] → [n, c]), adds, and spells the logistic
  function out as `1 / (1 + exp (-x))` with the ones spread from a scalar computes the same array: on the extended
  reals `logistic x` IS `div 1 (1 + exp (-x))`, the f32 word 0x3F800000 is the real one, and both ways of placing the
  bias read `b[q]` (`sigRows_eq_spelt`, with the bias row given as the vector recast to [1, c]).
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Sig

open Idealize.ShloMosaic Idealize.ShloMosaic.ValueIdx

/-- Entry `(p, q)` is `logistic (agg[p,q] + b[0,q])`. -/
def sigRows {n c : ℕ} (agg : (⟨2, ![n, c]⟩ : Shape).Idx → EReal) (b : (⟨2, ![1, c]⟩ : Shape).Idx → EReal) :
    (⟨2, ![n, c]⟩ : Shape).Idx → EReal :=
  fun i => Ideal.logistic (agg i + b (ix2 (0 : Fin 1) (i 1)))
/-- Spreading a vector over the rows of a matrix in two steps, [c] → [1, c] (dimension 1) → [n, c] (dimensions 0, 1),
    reads the vector at the column. -/
theorem spread_apply {n c : ℕ} (b : (⟨1, ![c]⟩ : Shape).Idx → EReal)
    (h1 : (⟨1, ![c]⟩ : Shape).BroadcastsInDim ⟨2, ![1, c]⟩ ![1])
    (h01 : (⟨2, ![1, c]⟩ : Shape).BroadcastsInDim ⟨2, ![n, c]⟩ ![0, 1]) (p : Fin n) (q : Fin c) :
    broadcastInDim ⟨2, ![n, c]⟩ ![0, 1] h01 (broadcastInDim ⟨2, ![1, c]⟩ ![1] h1 b) (ix2 p q) = b (ix1 q) := by
  rw [broadcastInDim_apply ![0, 1] h01 _ (ix2 p q) (ix2 (0 : Fin 1) q) (fun a => by
    match a with
    | ⟨0, _⟩ => rfl
    | ⟨1, _⟩ =>
      show q.val = if c = 1 then 0 else q.val
      split
      · have := q.isLt; omega
      · rfl)]
  exact broadcastInDim_apply ![1] h1 b (ix2 (0 : Fin 1) q) (ix1 q) (fun a => by
    match a with
    | ⟨0, _⟩ =>
      show q.val = if c = 1 then 0 else q.val
      split
      · have := q.isLt; omega
      · rfl)

/-- The squashed output with the bias recast as a row is the spelt-out `1 / (1 + exp (-(agg + spread b)))`. -/
theorem sigRows_eq_spelt {n c : ℕ} (agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ ![1])
    (h01 : (⟨2, ![1, c]⟩ : Shape).BroadcastsInDim ⟨2, ![n, c]⟩ ![0, 1])
    (hs : (⟨0, ![]⟩ : Shape).BroadcastsInDim ⟨2, ![n, c]⟩ ![]) :
    sigRows agg (shapeCast ⟨2, ![1, c]⟩ b hc)
      = Host.divf (F := Ideal) (φ := .f32) (broadcastInDim ⟨2, ![n, c]⟩ ![] hs (constant (F := Ideal) ⟨0, ![]⟩ .f32 0x3F800000#32))
          (addf (broadcastInDim ⟨2, ![n, c]⟩ ![] hs (constant (F := Ideal) ⟨0, ![]⟩ .f32 0x3F800000#32))
            (Host.exp (Host.negf (addf agg (broadcastInDim ⟨2, ![n, c]⟩ ![0, 1] h01 (broadcastInDim ⟨2, ![1, c]⟩ ![1] h1 b)))))) := by
  funext i
  obtain ⟨p, q, rfl⟩ : ∃ (p : Fin n) (q : Fin c), i = ix2 p q := ⟨i 0, i 1, eq_ix2 i⟩
  unfold sigRows
  show Ideal.logistic (agg (ix2 p q) + shapeCast ⟨2, ![1, c]⟩ b hc (ix2 (0 : Fin 1) q))
    = Ideal.div (broadcastInDim ⟨2, ![n, c]⟩ ![] hs (constant (F := Ideal) ⟨0, ![]⟩ .f32 0x3F800000#32) (ix2 p q))
        (broadcastInDim ⟨2, ![n, c]⟩ ![] hs (constant (F := Ideal) ⟨0, ![]⟩ .f32 0x3F800000#32) (ix2 p q)
          + Ideal.exp (-(agg (ix2 p q) + broadcastInDim ⟨2, ![n, c]⟩ ![0, 1] h01 (broadcastInDim ⟨2, ![1, c]⟩ ![1] h1 b) (ix2 p q))))
  rw [broadcastInDim_scalar_apply, constant_apply, Ideal.ofBits_one_f32, spread_apply, shapeCast_a_1a_apply]
  rfl

end Cert.Sig

end
-- ==== Proof.SageLayer.lean ====
/-
  The arithmetic of one GraphSAGE layer and of the scoring head, entry by entry, on the extended reals.

  A layer takes node features `x : [M, K]`, the mean of each node's in-neighbours `agg : [M, K]`, two weight
  matrices `wn, wr : [K, C]` and a bias row `b : [1, C]`, and produces
      (∑ k, agg[p,k] · wn[k,q]) + (∑ k, x[p,k] · wr[k,q]) + b[0,q],
  optionally clipped below at zero. Addition of extended reals is commutative and associative, so this is the layer
  `lin agg x wn wr b` of LibLinLayer.lean (which adds the bias between the two products). A block of rows computes it
  by two `tpu.matmul`s into zero accumulators of operands passed through a narrower float format (the identity on
  exact values); the host computes it by two `dot_general`s.

  The head takes two embeddings `u, v : [M, K]`, a weight column `w : [2K, 1]` and a bias, and squashes
      (∑ k, u[p,k] · w[k,0]) + (∑ k, v[p,k] · w[K+k,0]) + bias
  by the logistic function. A sum over the `2K` columns of the two embeddings joined side by side is the sum over the
  first `K` plus the sum over the last `K` (`rowsByCols_halves`).
-/
import Idealize.ShloMosaic.Lib.ValueIdx
import Idealize.ShloMosaic.Lib.Pipeline.Value
import Idealize.ShloMosaic.PureOps.Ideal.Laws
import proofs.«145416_j38774964748344_1_alg».proof.Proof.LibPlainDot
import proofs.«145416_j38774964748344_1_alg».proof.Proof.LibLinLayer
import proofs.«145416_j38774964748344_1_alg».proof.Proof.LibSigRows

noncomputable section

namespace Cert.Sage

open Idealize.ShloMosaic Idealize.ShloMosaic.ValueIdx Cert.Lib.PlainDot Cert.Lib.LinLayer

/-- A block body's arithmetic, the bias row added last: the two products first, then the row spread over the block. -/
theorem body_sage {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wn wr : FVec Ideal ⟨2, ![K, C]⟩ .f32) (b : FVec Ideal ⟨2, ![1, C]⟩ .f32) :
    addf (addf (matmul d none (truncf .bf16 agg hlt) (truncf .bf16 wn hlt) (constant (F := Ideal) ⟨2, ![M, C]⟩ .f32 0x00000000#32))
          (matmul d none (truncf .bf16 x hlt) (truncf .bf16 wr hlt) (constant (F := Ideal) ⟨2, ![M, C]⟩ .f32 0x00000000#32)))
        (broadcastTo ⟨2, ![M, C]⟩ b hb)
      = lin agg x wn wr b := by
  funext j
  rw [addf_apply, addf_apply]
  show FloatOps.matmul d none (truncf .bf16 agg hlt) (truncf .bf16 wn hlt) (constant (F := Ideal) ⟨2, ![M, C]⟩ .f32 0x00000000#32) j
      + FloatOps.matmul d none (truncf .bf16 x hlt) (truncf .bf16 wr hlt) (constant (F := Ideal) ⟨2, ![M, C]⟩ .f32 0x00000000#32) j
      + broadcastTo ⟨2, ![M, C]⟩ b hb j = _
  rw [matmul_zero_eq d hd none (truncf .bf16 agg hlt) (truncf .bf16 wn hlt),
    matmul_zero_eq d hd none (truncf .bf16 x hlt) (truncf .bf16 wr hlt), spread_row b hb j]
  exact add_right_comm _ _ _

/-- The same followed by a maximum with the zero word spread over the block: the rectified layer. -/
theorem body_sageRelu {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wn wr : FVec Ideal ⟨2, ![K, C]⟩ .f32) (b : FVec Ideal ⟨2, ![1, C]⟩ .f32) :
    maximumf (addf (addf (matmul d none (truncf .bf16 agg hlt) (truncf .bf16 wn hlt) (constant (F := Ideal) ⟨2, ![M, C]⟩ .f32 0x00000000#32))
          (matmul d none (truncf .bf16 x hlt) (truncf .bf16 wr hlt) (constant (F := Ideal) ⟨2, ![M, C]⟩ .f32 0x00000000#32)))
        (broadcastTo ⟨2, ![M, C]⟩ b hb))
        (broadcast ⟨2, ![M, C]⟩ (Scalar.ofBits (F := Ideal) .f32 0x00000000#32))
      = linRelu agg x wn wr b := by
  rw [body_sage d hd hb hlt agg x wn wr b]
  funext j
  rw [maximumf_apply, broadcast_apply]
  show max _ (Ideal.ofBits .f32 0x00000000#32) = _
  rw [Ideal.ofBits_zero_f32]
  rfl

/-- The host's arithmetic, the bias row added last: two `dot_general`s, then the row spread over the array. -/
theorem host_sage {M K C : ℕ} (d : DotDims ⟨2, ![M, K]⟩ ⟨2, ![K, C]⟩ ⟨2, ![M, C]⟩) (hd : d = DotDims.plain M K C)
    (h : (⟨2, ![1, C]⟩ : Shape).BroadcastsInDim ⟨2, ![M, C]⟩ ![0, 1])
    (agg x : FVec Ideal ⟨2, ![M, K]⟩ .f32) (wn wr : FVec Ideal ⟨2, ![K, C]⟩ .f32) (b : FVec Ideal ⟨2, ![1, C]⟩ .f32) :
    addf (addf (Host.dotGeneral d none agg wn) (Host.dotGeneral d none x wr)) (broadcastInDim ⟨2, ![M, C]⟩ ![0, 1] h b)
      = lin agg x wn wr b := by
  funext j
  rw [addf_apply, addf_apply]
  show FloatOps.dotGeneral d none .single agg wn j + FloatOps.dotGeneral d none .single x wr j
      + broadcastInDim ⟨2, ![M, C]⟩ ![0, 1] h b j = _
  rw [dotGeneral_eq d hd none .single agg wn, dotGeneral_eq d hd none .single x wr,
    broadcastInDim_apply ![0, 1] h b j (ix2 (0 : Fin 1) (j 1)) (fun a => by
      match a with
      | ⟨0, _⟩ => show 0 = if (1 : ℕ) = 1 then 0 else _; rw [if_pos rfl]
      | ⟨1, _⟩ =>
        show (j 1).val = if C = 1 then 0 else (j 1).val
        split
        · have hj : (j 1).val < C := (j 1).isLt; omega
        · rfl)]
  exact add_right_comm _ _ _

/-! ## The scoring head -/

/-- The head before the bias and the squashing: the two embeddings' projections added. -/
def headPre {M K : ℕ} (u v : Arr M K) (wu wv : Arr K 1) : Arr M 1 :=
  fun j => rowsByCols u wu j + rowsByCols v wv j

/-- Rows of the head depend on the same rows of the two embeddings only. -/
theorem headPre_congr {M M' K : ℕ} (U V : Arr M K) (Wu Wv : Arr K 1) (u v : Arr M' K) (wu wv : Arr K 1)
    (j' : (⟨2, ![M', 1]⟩ : Shape).Idx) (j : (⟨2, ![M, 1]⟩ : Shape).Idx)
    (hu : ∀ k : Fin K, u (ix2 (j' 0) k) = U (ix2 (j 0) k)) (hv : ∀ k : Fin K, v (ix2 (j' 0) k) = V (ix2 (j 0) k))
    (hwu : ∀ k : Fin K, wu (ix2 k (j' 1)) = Wu (ix2 k (j 1))) (hwv : ∀ k : Fin K, wv (ix2 k (j' 1)) = Wv (ix2 k (j 1))) :
    headPre u v wu wv j' = headPre U V Wu Wv j := by
  unfold headPre
  rw [rowsByCols_congr U Wu u wu j' j hu hwu, rowsByCols_congr V Wv v wv j' j hv hwv]

/-- An entry of the squashed output depends on the same entry before squashing and on the bias at its column. -/
theorem sigRows_congr {n n' c c' : ℕ} (A : Arr n c) (B : Arr 1 c) (a : Arr n' c') (b : Arr 1 c')
    (j' : (⟨2, ![n', c']⟩ : Shape).Idx) (j : (⟨2, ![n, c]⟩ : Shape).Idx)
    (ha : a j' = A j) (hb : b (ix2 (0 : Fin 1) (j' 1)) = B (ix2 (0 : Fin 1) (j 1))) :
    Cert.Sig.sigRows a b j' = Cert.Sig.sigRows A B j := by
  unfold Cert.Sig.sigRows
  rw [ha, hb]

/-- The head's block body: two `tpu.matmul`s into zero accumulators, the bias spread over the block, the logistic
    function. -/
theorem body_head {M K : ℕ} (d : DotDims ⟨2, ![M, K]⟩ ⟨2, ![K, 1]⟩ ⟨2, ![M, 1]⟩) (hd : d = DotDims.plain M K 1)
    (hb : (⟨2, ![1, 1]⟩ : Shape).Broadcasts ⟨2, ![M, 1]⟩) (hlt : FTy.bf16.bits < FTy.f32.bits)
    (u v : FVec Ideal ⟨2, ![M, K]⟩ .f32) (wu wv : FVec Ideal ⟨2, ![K, 1]⟩ .f32) (b : FVec Ideal ⟨2, ![1, 1]⟩ .f32) :
    logistic (addf (addf (matmul d none (truncf .bf16 u hlt) (truncf .bf16 wu hlt) (constant (F := Ideal) ⟨2, ![M, 1]⟩ .f32 0x00000000#32))
          (matmul d none (truncf .bf16 v hlt) (truncf .bf16 wv hlt) (constant (F := Ideal) ⟨2, ![M, 1]⟩ .f32 0x00000000#32)))
        (broadcastTo ⟨2, ![M, 1]⟩ b hb))
      = Cert.Sig.sigRows (headPre u v wu wv) b := by
  funext j
  show Ideal.logistic _ = Ideal.logistic _
  refine congrArg Ideal.logistic ?_
  rw [addf_apply, addf_apply]
  show FloatOps.matmul d none (truncf .bf16 u hlt) (truncf .bf16 wu hlt) (constant (F := Ideal) ⟨2, ![M, 1]⟩ .f32 0x00000000#32) j
      + FloatOps.matmul d none (truncf .bf16 v hlt) (truncf .bf16 wv hlt) (constant (F := Ideal) ⟨2, ![M, 1]⟩ .f32 0x00000000#32) j
      + broadcastTo ⟨2, ![M, 1]⟩ b hb j = _
  rw [matmul_zero_eq d hd none (truncf .bf16 u hlt) (truncf .bf16 wu hlt),
    matmul_zero_eq d hd none (truncf .bf16 v hlt) (truncf .bf16 wv hlt), spread_row b hb j]
  rfl

/-- A sum over 128 positions is the sum over the first 64 plus the sum over the last 64. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

/-- The product of two arrays joined side by side with a column of 128 weights is the sum of each array's product
    with its half of the column. -/
theorem rowsByCols_halves {M : ℕ} (l : Arr M 128) (w : Arr 128 1) (u v : Arr M 64) (wu wv : Arr 64 1)
    (hu : ∀ (p : Fin M) (k : Fin 64), l (ix2 p (Fin.castAdd 64 k)) = u (ix2 p k))
    (hv : ∀ (p : Fin M) (k : Fin 64), l (ix2 p (Fin.natAdd 64 k)) = v (ix2 p k))
    (hwu : ∀ (k : Fin 64) (q : Fin 1), w (ix2 (Fin.castAdd 64 k) q) = wu (ix2 k q))
    (hwv : ∀ (k : Fin 64) (q : Fin 1), w (ix2 (Fin.natAdd 64 k) q) = wv (ix2 k q)) :
    rowsByCols l w = headPre u v wu wv := by
  funext j
  unfold headPre rowsByCols
  rw [sum_halves]
  congr 1
  · exact Finset.sum_congr rfl fun k _ => congrArg₂ (· * ·) (hu (j 0) k) (hwu k (j 1))
  · exact Finset.sum_congr rfl fun k _ => congrArg₂ (· * ·) (hv (j 0) k) (hwv k (j 1))

end Cert.Sage

end
-- ==== Proof.Spec.lean ====
/-
  What the whole program computes, as one function of its eighteen argument arrays, on the extended reals.

  Two graphs (users, items) are encoded by the same two-layer network and the two embeddings are scored together.
  For node features `x : [50000, 256]` and an edge list `e : [2, 800000]` (row 0 the sources, row 1 the targets):
    * `meanAgg x s d` is the mean of `x` over each node's incoming edges: the rows `x[s[j]]` (a negative source
      wrapped by 50000) summed into row `d[j]`, each row divided by max(number of incoming edges, 1). It is kept as
      the host's own chain of operations — both programs run the same chain, so it is never opened;
    * layer 1 is `h = max(meanAgg x · Wn1 + x · Wr1 + b1, 0)`, layer 2 is `meanAgg h · Wn2 + h · Wr2 + b2`;
    * the score is `logistic (eu · W[0:64] + ei · W[64:128] + b)` of the two embeddings.
-/
import proofs.«145416_j38774964748344_1_alg».proof.KernelIdeal
import proofs.«145416_j38774964748344_1_alg».proof.Proof.Gen.KernelIdeal
import proofs.«145416_j38774964748344_1_alg».proof.Proof.SageLayer

noncomputable section

namespace Cert.Hand

open Idealize.ShloMosaic Idealize.ShloMosaic.ValueIdx Cert.KernelIdeal Cert.KernelIdeal.Facts₀ Cert.KernelIdeal.Facts Cert.Lib.LinLayer Cert.Sage

/-- Row 0 of an edge list, as a vector. -/
def edgeRow0 (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
/-- Row 1 of an edge list, as a vector. -/
def edgeRow1 (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The mean of `x` over each node's incoming edges (sources `s`, targets `d`), as the host computes it: gather the
    source rows, scatter-add them at the targets, count the targets the same way, divide by the count clipped below at
    one. -/
def meanAgg (x : (⟨S50000x256, .f32⟩ : BufTy).Contents (Elt Ideal)) (s d : (⟨S800000, .i32⟩ : BufTy).Contents (Elt Ideal)) :
    (⟨S50000x256, .f32⟩ : BufTy).Contents (Elt Ideal) :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather gather_S50000x256_S800000x1_S800000x256_1_0_n_n_0_1_1256 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x256 ![0, 1] bcast_S50000x1_S50000x256_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- A bias vector as a one-row matrix (256, 64 and 1 entries). -/
def biasRow256 (b : (⟨S256, .f32⟩ : BufTy).Contents (Elt Ideal)) : (⟨S1x256, .f32⟩ : BufTy).Contents (Elt Ideal) :=
  shapeCast S1x256 b shapeCasts_S256_S1x256
def biasRow64 (b : (⟨S64, .f32⟩ : BufTy).Contents (Elt Ideal)) : (⟨S1x64, .f32⟩ : BufTy).Contents (Elt Ideal) :=
  shapeCast S1x64 b shapeCasts_S64_S1x64
def biasRow1 (b : (⟨S1, .f32⟩ : BufTy).Contents (Elt Ideal)) : (⟨S1x1, .f32⟩ : BufTy).Contents (Elt Ideal) :=
  shapeCast S1x1 b shapeCasts_S1_S1x1

/-- Layer 1 of an encoder: the rectified layer of the features and their neighbourhood means. -/
def hidden (x : (⟨S50000x256, .f32⟩ : BufTy).Contents (Elt Ideal)) (e : (⟨S2x800000, .i32⟩ : BufTy).Contents (Elt Ideal))
    (wn wr : (⟨S256x256, .f32⟩ : BufTy).Contents (Elt Ideal)) (b : (⟨S256, .f32⟩ : BufTy).Contents (Elt Ideal)) : Arr 50000 256 :=
  linRelu (M := 50000) (K := 256) (C := 256) (meanAgg x (edgeRow0 e) (edgeRow1 e)) x wn wr (biasRow256 b)

/-- Layer 2 of an encoder, on the hidden features `h`. -/
def embed (h : (⟨S50000x256, .f32⟩ : BufTy).Contents (Elt Ideal)) (e : (⟨S2x800000, .i32⟩ : BufTy).Contents (Elt Ideal))
    (wn wr : (⟨S256x64, .f32⟩ : BufTy).Contents (Elt Ideal)) (b : (⟨S64, .f32⟩ : BufTy).Contents (Elt Ideal)) : Arr 50000 64 :=
  lin (M := 50000) (K := 256) (C := 64) (meanAgg h (edgeRow0 e) (edgeRow1 e)) h wn wr (biasRow64 b)

/-- The first 64 and the last 64 weights of the head's column. -/
def headLo (w : (⟨S128x1, .f32⟩ : BufTy).Contents (Elt Ideal)) : (⟨S64x1, .f32⟩ : BufTy).Contents (Elt Ideal) :=
  extractStridedSlice S64x1 ![0, 0] w slices_S128x1_S64x1_0_0
def headHi (w : (⟨S128x1, .f32⟩ : BufTy).Contents (Elt Ideal)) : (⟨S64x1, .f32⟩ : BufTy).Contents (Elt Ideal) :=
  extractStridedSlice S64x1 ![64, 0] w slices_S128x1_S64x1_64_0

/-- The score of every node pair from the two embeddings. -/
def scoreOf (eu ei : (⟨S50000x64, .f32⟩ : BufTy).Contents (Elt Ideal)) (w : (⟨S128x1, .f32⟩ : BufTy).Contents (Elt Ideal))
    (b : (⟨S1, .f32⟩ : BufTy).Contents (Elt Ideal)) : Arr 50000 1 :=
  Cert.Sig.sigRows (n := 50000) (c := 1) (headPre (M := 50000) (K := 64) eu ei (headLo w) (headHi w)) (biasRow1 b)

end Cert.Hand

end
-- ==== Proof.Region0.lean ====
/-
  Pipeline 0 (a rectified layer over 25 blocks of 2000 nodes), at any contents `V` of the buffers when the region is
  entered: the array its output window is written back to ends holding the rectified layer of the whole input arrays.

  Point `t` loads rows `2000·t … 2000·t + 1999` of the neighbourhood means and of the features and the whole weight
  matrices and bias row, and writes back the same rows of the result. A row of the layer depends on the same row of
  the two row-blocked inputs only, so each block written back is the block of the layer of the whole arrays, and the
  25 blocks cover the 50000 rows.
-/
import proofs.«145416_j38774964748344_1_alg».proof.Proof.Gen.KernelIdeal.Frame
import proofs.«145416_j38774964748344_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Hand.Region0

open Cert.KernelIdeal Cert.KernelIdeal.Gen Cert.Lib.LinLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the rectified layer of the blocks. -/
theorem pay_eq (x0 x1 : Vec Ideal S2000x256 .f32) (x2 x3 : Vec Ideal S256x256 .f32) (x4 : Vec Ideal S1x256 .f32) :
    k0_pay1 (F := Ideal) x0 x1 x2 x3 x4 = linRelu (M := 2000) (K := 256) (C := 256) x0 x1 x2 x3 x4 := by
  unfold k0_pay1
  dsimp only
  simp only [shapeCast_self]
  exact body_sageRelu (M := 2000) (K := 256) (C := 256) dot_S2000x256_S256x256_S2000x256_1_0_0_1_n_n rfl _ _ x0 x1 x2 x3 x4

/-- The printed index maps over the grid: the two row-blocked inputs and the output are at block row `t`, block
    column 0; the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `2000·t …` of its array. -/
theorem read0 (c : Dev nD) (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c main_v26 : S50000x256.Idx → EReal) i := by
  obtain ⟨e0, e1, -⟩ := idx_facts t
  show V c main_v26 (((cfg0.win 0).blk t).view.emb y) = V c main_v26 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- Window 1's block at point `t` is rows `2000·t …` of its array. -/
theorem read1 (c : Dev nD) (t : Fin cfg0.N) (y : S2000x256.Idx) (i : S50000x256.Idx)
    (h0 : (i 0).val = t.val * 2000 + (y 0).val) (h1 : (i 1).val = (y 1).val) :
    (iblk0 V c 1 t : Vec Ideal S2000x256 .f32) y = (V c main_arg0 : S50000x256.Idx → EReal) i := by
  obtain ⟨-, -, e0, e1, -⟩ := idx_facts t
  show V c main_arg0 (((cfg0.win 1).blk t).view.emb y) = V c main_arg0 i
  refine congrArg _ (funext fun a => Fin.ext ?_)
  match a with
  | ⟨0, _⟩ => show win0_1.index t (0 : Fin 2) * 2000 + 1 * (y 0).val = (i 0).val; omega
  | ⟨1, _⟩ => show win0_1.index t (1 : Fin 2) * 256 + 1 * (y 1).val = (i 1).val; omega

/-- Windows 2, 3 and 4 hold their whole arrays at every point. -/
theorem read2 (c : Dev nD) (t : Fin cfg0.N) (y : S256x256.Idx) :
    (iblk0 V c 2 t : Vec Ideal S256x256 .f32) y = (V c main_arg4 : S256x256.Idx → EReal) y := by
  obtain ⟨-, -, -, -, e0, e1, -⟩ := idx_facts t
  show V c main_arg4 (((cfg0.win 2).blk t).view.emb y) = V c main_arg4 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega
theorem read3 (c : Dev nD) (t : Fin cfg0.N) (y : S256x256.Idx) :
    (iblk0 V c 3 t : Vec Ideal S256x256 .f32) y = (V c main_arg5 : S256x256.Idx → EReal) y := by
  obtain ⟨-, -, -, -, -, -, e0, e1, -⟩ := idx_facts t
  show V c main_arg5 (((cfg0.win 3).blk t).view.emb y) = V c main_arg5 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem read4 (c : Dev nD) (t : Fin cfg0.N) (y : S1x256.Idx) :
    (iblk0 V c 4 t : Vec Ideal S1x256 .f32) y = (V c main_v27 : S1x256.Idx → EReal) y := by
  obtain ⟨-, -, -, -, -, -, -, -, e0, e1, -⟩ := idx_facts t
  show V c main_v27 (((cfg0.win 4).blk t).view.emb y) = V c main_v27 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The rectified layer of the arrays the region finds. -/
abbrev whole (c : Dev nD) : Arr 50000 256 :=
  linRelu (M := 50000) (K := 256) (C := 256) (V c main_v26) (V c main_arg0) (V c main_arg4) (V c main_arg5) (V c main_v27)

/-- What point `t` writes back is block `t` of the rectified layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  rw [pay_eq]
  obtain ⟨-, -, -, -, -, -, -, -, -, -, e0, e1⟩ := idx_facts t
  funext j
  have hj0 : ((((cfg0.win 5).blk t).view.emb j) 0).val = t.val * 2000 + (j 0).val := by
    show win0_5.index t (0 : Fin 2) * 2000 + 1 * (j 0).val = _; omega
  have hj1 : ((((cfg0.win 5).blk t).view.emb j) 1).val = (j 1).val := by
    show win0_5.index t (1 : Fin 2) * 256 + 1 * (j 1).val = _; omega
  have hc : (((cfg0.win 5).blk t).view.emb j) 1 = j 1 := Fin.ext hj1
  show linRelu (M := 2000) (K := 256) (C := 256) (iblk0 V c 0 t) (iblk0 V c 1 t) (iblk0 V c 2 t) (iblk0 V c 3 t) (iblk0 V c 4 t) j
    = whole V c (((cfg0.win 5).blk t).view.emb j)
  exact linRelu_congr (M := 50000) (M' := 2000) (K := 256) (C := 256) (C' := 256)
    (V c main_v26) (V c main_arg0) (V c main_arg4) (V c main_arg5) (V c main_v27)
    (iblk0 V c 0 t) (iblk0 V c 1 t) (iblk0 V c 2 t) (iblk0 V c 3 t) (iblk0 V c 4 t) j (((cfg0.win 5).blk t).view.emb j)
    (fun k => read0 V c t (ix2 (j 0) k) (ix2 ((((cfg0.win 5).blk t).view.emb j) 0) k) hj0 rfl)
    (fun k => read1 V c t (ix2 (j 0) k) (ix2 ((((cfg0.win 5).blk t).view.emb j) 0) k) hj0 rfl)
    (fun k => by rw [hc]; exact read2 V c t (ix2 k (j 1)))
    (fun k => by rw [hc]; exact read3 V c t (ix2 k (j 1)))
    (by rw [hc]; exact read4 V c t (ix2 (0 : Fin 1) (j 1)))

/-- An index of the output array is in point `t`'s block iff each coordinate is in the block's range. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v28).slice (win0_5.rect t)).set ↔ _
  rw [View.set_slice_whole, Rect.mem_set_unit]
  exact Iff.rfl

/-- Row `r` of the output is in the block of point `r / 2000`. -/
theorem cover (i : S50000x256.Idx) : ∃ t : Fin cfg0.N, (cfg0.win 5).flush t = true ∧ i ∈ ((cfg0.win 5).blk t).view.set := by
  have hN : grid0.N = 25 := N_0
  have hi0 : (i 0).val < 50000 := (i 0).isLt
  have hi1 : (i 1).val < 256 := (i 1).isLt
  have ht : (i 0).val / 2000 < cfg0.N := by show _ < grid0.N; rw [hN]; omega
  refine ⟨⟨(i 0).val / 2000, ht⟩, flush0_5 _, ?_⟩
  rw [mem_blk]
  obtain ⟨-, -, -, -, -, -, -, -, -, -, e0, e1⟩ := idx_facts ⟨(i 0).val / 2000, ht⟩
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]; omega

/-- The output array after the region: the rectified layer of the arrays the region finds. -/
theorem final (c : Dev nD) : (dat0 V c).arrAt 5 cfg0.N = whole V c :=
  (dat0 V c).arrAt_eq_of_cover 5 (whole V c) (fun t _ => flushed_eq V c t) cover

/-- The same with the arrays the region finds given by name. -/
theorem final_of (c : Dev nD) (b0 b1 : Arr 50000 256) (b2 b3 : Arr 256 256) (b4 : Arr 1 256)
    (h0 : (V c main_v26 : S50000x256.Idx → EReal) = b0) (h1 : (V c main_arg0 : S50000x256.Idx → EReal) = b1)
    (h2 : (V c main_arg4 : S256x256.Idx → EReal) = b2) (h3 : (V c main_arg5 : S256x256.Idx → EReal) = b3)
    (h4 : (V c main_v27 : S1x256.Idx → EReal) = b4) :
    (dat0 V c).arrAt 5 cfg0.N = linRelu (M := 50000) (K := 256) (C := 256) b0 b1 b2 b3 b4 := by
  subst h0 h1 h2 h3 h4
  exact final V c

end Cert.Hand.Region0

end
-- ==== Proof.Walk1.lean ====
/-
  The buffers' contents at the first two segment boundaries of the idealized kernel's @main, read back to the launch
  memory `m`: after the first stretch of host operations (the edge lists' rows, the user graph's neighbourhood means of
  the features, the first bias as a row; every argument still as launched), and after region 0 (its output array at the
  user graph's hidden features; every other buffer as before). Each buffer a later segment reads is followed
  through each boundary: a host stretch leaves a buffer none of its operations writes, a region every buffer that is
  not one of its arrays.
-/
import proofs.«145416_j38774964748344_1_alg».proof.Proof.Gen.KernelIdeal.Frame
import proofs.«145416_j38774964748344_1_alg».proof.Proof.Spec
import proofs.«145416_j38774964748344_1_alg».proof.Proof.Region0
import Idealize.ShloMosaic.Lib.StableHlo.Run

set_option maxRecDepth 16384

noncomputable section

namespace Cert.Hand.Walk

open Cert.KernelIdeal Cert.KernelIdeal.Gen Cert.Hand Cert.Lib.LinLayer Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem L1_v26 : W1 m ρ c (Proc.devRef .tc main_v26) = meanAgg (m ((c : Thread nD τ).loc main_arg0)) (edgeRow0 (m ((c : Thread nD τ).loc main_arg2))) (edgeRow1 (m ((c : Thread nD τ).loc main_arg2))) := by
  show StableHlo.after hostOps0 (W0 m ρ c) (Proc.devRef .tc main_v26) = _
  after_results_simp <;> rfl
theorem L1_v27 : W1 m ρ c (Proc.devRef .tc main_v27) = biasRow256 (m ((c : Thread nD τ).loc main_arg6)) := by
  show StableHlo.after hostOps0 (W0 m ρ c) (Proc.devRef .tc main_v27) = _
  after_results_simp <;> rfl
theorem L1_v1 : W1 m ρ c (Proc.devRef .tc main_v1) = edgeRow0 (m ((c : Thread nD τ).loc main_arg2)) := by
  show StableHlo.after hostOps0 (W0 m ρ c) (Proc.devRef .tc main_v1) = _
  after_results_simp <;> rfl
theorem L1_v3 : W1 m ρ c (Proc.devRef .tc main_v3) = edgeRow1 (m ((c : Thread nD τ).loc main_arg2)) := by
  show StableHlo.after hostOps0 (W0 m ρ c) (Proc.devRef .tc main_v3) = _
  after_results_simp <;> rfl
theorem L1_v5 : W1 m ρ c (Proc.devRef .tc main_v5) = edgeRow0 (m ((c : Thread nD τ).loc main_arg3)) := by
  show StableHlo.after hostOps0 (W0 m ρ c) (Proc.devRef .tc main_v5) = _
  after_results_simp <;> rfl
theorem L1_v7 : W1 m ρ c (Proc.devRef .tc main_v7) = edgeRow1 (m ((c : Thread nD τ).loc main_arg3)) := by
  show StableHlo.after hostOps0 (W0 m ρ c) (Proc.devRef .tc main_v7) = _
  after_results_simp <;> rfl
theorem L1_arg0 : W1 m ρ c (Proc.devRef .tc main_arg0) = m ((c : Thread nD τ).loc main_arg0) := by
  show StableHlo.after hostOps0 (W0 m ρ c) (Proc.devRef .tc main_arg0) = _
  after_results_simp <;> rfl
theorem L1_arg1 : W1 m ρ c (Proc.devRef .tc main_arg1) = m ((c : Thread nD τ).loc main_arg1) := by
  show StableHlo.after hostOps0 (W0 m ρ c) (Proc.devRef .tc main_arg1) = _
  after_results_simp <;> rfl
theorem L1_arg4 : W1 m ρ c (Proc.devRef .tc main_arg4) = m ((c : Thread nD τ).loc main_arg4) := by
  show StableHlo.after hostOps0 (W0 m ρ c) (Proc.devRef .tc main_arg4) = _
  after_results_simp <;> rfl
theorem L1_arg5 : W1 m ρ c (Proc.devRef .tc main_arg5) = m ((c : Thread nD τ).loc main_arg5) := by
  show StableHlo.after hostOps0 (W0 m ρ c) (Proc.devRef .tc main_arg5) = _
  after_results_simp <;> rfl
theorem L1_arg7 : W1 m ρ c (Proc.devRef .tc main_arg7) = m ((c : Thread nD τ).loc main_arg7) := by
  show StableHlo.after hostOps0 (W0 m ρ c) (Proc.devRef .tc main_arg7) = _
  after_results_simp <;> rfl
theorem L1_arg8 : W1 m ρ c (Proc.devRef .tc main_arg8) = m ((c : Thread nD τ).loc main_arg8) := by
  show StableHlo.after hostOps0 (W0 m ρ c) (Proc.devRef .tc main_arg8) = _
  after_results_simp <;> rfl
theorem L1_arg9 : W1 m ρ c (Proc.devRef .tc main_arg9) = m ((c : Thread nD τ).loc main_arg9) := by
  show StableHlo.after hostOps0 (W0 m ρ c) (Proc.devRef .tc main_arg9) = _
  after_results_simp <;> rfl
theorem L1_arg10 : W1 m ρ c (Proc.devRef .tc main_arg10) = m ((c : Thread nD τ).loc main_arg10) := by
  show StableHlo.after hostOps0 (W0 m ρ c) (Proc.devRef .tc main_arg10) = _
  after_results_simp <;> rfl
theorem L1_arg11 : W1 m ρ c (Proc.devRef .tc main_arg11) = m ((c : Thread nD τ).loc main_arg11) := by
  show StableHlo.after hostOps0 (W0 m ρ c) (Proc.devRef .tc main_arg11) = _
  after_results_simp <;> rfl
theorem L1_arg12 : W1 m ρ c (Proc.devRef .tc main_arg12) = m ((c : Thread nD τ).loc main_arg12) := by
  show StableHlo.after hostOps0 (W0 m ρ c) (Proc.devRef .tc main_arg12) = _
  after_results_simp <;> rfl
theorem L1_arg13 : W1 m ρ c (Proc.devRef .tc main_arg13) = m ((c : Thread nD τ).loc main_arg13) := by
  show StableHlo.after hostOps0 (W0 m ρ c) (Proc.devRef .tc main_arg13) = _
  after_results_simp <;> rfl
theorem L1_arg14 : W1 m ρ c (Proc.devRef .tc main_arg14) = m ((c : Thread nD τ).loc main_arg14) := by
  show StableHlo.after hostOps0 (W0 m ρ c) (Proc.devRef .tc main_arg14) = _
  after_results_simp <;> rfl
theorem L1_arg15 : W1 m ρ c (Proc.devRef .tc main_arg15) = m ((c : Thread nD τ).loc main_arg15) := by
  show StableHlo.after hostOps0 (W0 m ρ c) (Proc.devRef .tc main_arg15) = _
  after_results_simp <;> rfl
theorem L1_arg16 : W1 m ρ c (Proc.devRef .tc main_arg16) = m ((c : Thread nD τ).loc main_arg16) := by
  show StableHlo.after hostOps0 (W0 m ρ c) (Proc.devRef .tc main_arg16) = _
  after_results_simp <;> rfl
theorem L1_arg17 : W1 m ρ c (Proc.devRef .tc main_arg17) = m ((c : Thread nD τ).loc main_arg17) := by
  show StableHlo.after hostOps0 (W0 m ρ c) (Proc.devRef .tc main_arg17) = _
  after_results_simp <;> rfl
/-- After region 0 its output array holds the layer of what the region found. -/
theorem L2_v28 : W2 m ρ c (Proc.devRef .tc main_v28) = hidden (m ((c : Thread nD τ).loc main_arg0)) (m ((c : Thread nD τ).loc main_arg2)) (m ((c : Thread nD τ).loc main_arg4)) (m ((c : Thread nD τ).loc main_arg5)) (m ((c : Thread nD τ).loc main_arg6)) :=
  (W2_arr m ρ c 5).trans (Cert.Hand.Region0.final_of (V1 m ρ) c _ _ _ _ _
    (L1_v26 m ρ c) (L1_arg0 m ρ c) (L1_arg4 m ρ c) (L1_arg5 m ρ c) (L1_v27 m ρ c))
theorem L2_v1 : W2 m ρ c (Proc.devRef .tc main_v1) = edgeRow0 (m ((c : Thread nD τ).loc main_arg2)) :=
  (W2_of_ne m ρ c main_v1 (by decide)).trans (L1_v1 m ρ c)
theorem L2_v3 : W2 m ρ c (Proc.devRef .tc main_v3) = edgeRow1 (m ((c : Thread nD τ).loc main_arg2)) :=
  (W2_of_ne m ρ c main_v3 (by decide)).trans (L1_v3 m ρ c)
theorem L2_v5 : W2 m ρ c (Proc.devRef .tc main_v5) = edgeRow0 (m ((c : Thread nD τ).loc main_arg3)) :=
  (W2_of_ne m ρ c main_v5 (by decide)).trans (L1_v5 m ρ c)
theorem L2_v7 : W2 m ρ c (Proc.devRef .tc main_v7) = edgeRow1 (m ((c : Thread nD τ).loc main_arg3)) :=
  (W2_of_ne m ρ c main_v7 (by decide)).trans (L1_v7 m ρ c)
theorem L2_arg1 : W2 m ρ c (Proc.devRef .tc main_arg1) = m ((c : Thread nD τ).loc main_arg1) :=
  (W2_of_ne m ρ c main_arg1 (by decide)).trans (L1_arg1 m ρ c)
theorem L2_arg7 : W2 m ρ c (Proc.devRef .tc main_arg7) = m ((c : Thread nD τ).loc main_arg7) :=
  (W2_of_ne m ρ c main_arg7 (by decide)).trans (L1_arg7 m ρ c)
theorem L2_arg8 : W2 m ρ c (Proc.devRef .tc main_arg8) = m ((c : Thread nD τ).loc main_arg8) :=
  (W2_of_ne m ρ c main_arg8 (by decide)).trans (L1_arg8 m ρ c)
theorem L2_arg9 : W2 m ρ c (Proc.devRef .tc main_arg9) = m ((c : Thread nD τ).loc main_arg9) :=
  (W2_of_ne m ρ c main_arg9 (by decide)).trans (L1_arg9 m ρ c)
theorem L2_arg10 : W2 m ρ c (Proc.devRef .tc main_arg10) = m ((c : Thread nD τ).loc main_arg10) :=
  (W2_of_ne m ρ c main_arg10 (by decide)).trans (L1_arg10 m ρ c)
theorem L2_arg11 : W2 m ρ c (Proc.devRef .tc main_arg11) = m ((c : Thread nD τ).loc main_arg11) :=
  (W2_of_ne m ρ c main_arg11 (by decide)).trans (L1_arg11 m ρ c)
theorem L2_arg12 : W2 m ρ c (Proc.devRef .tc main_arg12) = m ((c : Thread nD τ).loc main_arg12) :=
  (W2_of_ne m ρ c main_arg12 (by decide)).trans (L1_arg12 m ρ c)
theorem L2_arg13 : W2 m ρ c (Proc.devRef .tc main_arg13) = m ((c : Thread nD τ).loc main_arg13) :=
  (W2_of_ne m ρ c main_arg13 (by decide)).trans (L1_arg13 m ρ c)
theorem L2_arg14 : W2 m ρ c (Proc.devRef .tc main_arg14) = m ((c : Thread nD τ).loc main_arg14) :=
  (W2_of_ne m ρ c main_arg14 (by decide)).trans (L1_arg14 m ρ c)
theorem L2_arg15 : W2 m ρ c (Proc.devRef .tc main_arg15) = m ((c : Thread nD τ).loc main_arg15) :=
  (W2_of_ne m ρ c main_arg15 (by decide)).trans (L1_arg15 m ρ c)
theorem L2_arg16 : W2 m ρ c (Proc.devRef .tc main_arg16) = m ((c : Thread nD τ).loc main_arg16) :=
  (W2_of_ne m ρ c main_arg16 (by decide)).trans (L1_arg16 m ρ c)
theorem L2_arg17 : W2 m ρ c (Proc.devRef .tc main_arg17) = m ((c : Thread nD τ).loc main_arg17) :=
  (W2_of_ne m ρ c main_arg17 (by decide)).trans (L1_arg17 m ρ c)

end Cert.Hand.Walk

end
-- ==== Proof.Region1.lean ====
/-
  Pipeline 1 (a layer over 25 blocks of 2000 nodes), at any contents `V` of the buffers when the region is
  entered: the array its output window is written back to ends holding the layer of the whole input arrays.

  Point `t` loads rows `2000·t … 2000·t + 1999` of the neighbourhood means and of the features and the whole weight
  matrices and bias row, and writes back the same rows of the result. A row of the layer depends on the same row of
  the two row-blocked inputs only, so each block written back is the block of the layer of the whole arrays, and the
  25 blocks cover the 50000 rows.
-/
import proofs.«145416_j38774964748344_1_alg».proof.Proof.Gen.KernelIdeal.Frame
import proofs.«145416_j38774964748344_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Hand.Region1

open Cert.KernelIdeal Cert.KernelIdeal.Gen Cert.Lib.LinLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer of the blocks. -/
theorem pay_eq (x0 x1 : Vec Ideal S2000x256 .f32) (x2 x3 : Vec Ideal S256x64 .f32) (x4 : Vec Ideal S1x64 .f32) :
    k1_pay1 (F := Ideal) x0 x1 x2 x3 x4 = lin (M := 2000) (K := 256) (C := 64) x0 x1 x2 x3 x4 := by
  unfold k1_pay1
  dsimp only
  simp only [shapeCast_self]
  exact body_sage (M := 2000) (K := 256) (C := 64) dot_S2000x256_S256x64_S2000x64_1_0_0_1_n_n rfl _ _ x0 x1 x2 x3 x4

/-- The printed index maps over the grid: the two row-blocked inputs and the output are at block row `t`, block
    column 0; the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `2000·t …` of its array. -/
theorem read0 (c : Dev nD) (t : Fin cfg1.N) (y : S2000x256.Idx) (i : S50000x256.Idx)
    (h0 : (i 0).val = t.val * 2000 + (y 0).val) (h1 : (i 1).val = (y 1).val) :
    (iblk1 V c 0 t : Vec Ideal S2000x256 .f32) y = (V c main_v47 : S50000x256.Idx → EReal) i := by
  obtain ⟨e0, e1, -⟩ := idx_facts t
  show V c main_v47 (((cfg1.win 0).blk t).view.emb y) = V c main_v47 i
  refine congrArg _ (funext fun a => Fin.ext ?_)
  match a with
  | ⟨0, _⟩ => show win1_0.index t (0 : Fin 2) * 2000 + 1 * (y 0).val = (i 0).val; omega
  | ⟨1, _⟩ => show win1_0.index t (1 : Fin 2) * 256 + 1 * (y 1).val = (i 1).val; omega

/-- Window 1's block at point `t` is rows `2000·t …` of its array. -/
theorem read1 (c : Dev nD) (t : Fin cfg1.N) (y : S2000x256.Idx) (i : S50000x256.Idx)
    (h0 : (i 0).val = t.val * 2000 + (y 0).val) (h1 : (i 1).val = (y 1).val) :
    (iblk1 V c 1 t : Vec Ideal S2000x256 .f32) y = (V c main_v28 : S50000x256.Idx → EReal) i := by
  obtain ⟨-, -, e0, e1, -⟩ := idx_facts t
  show V c main_v28 (((cfg1.win 1).blk t).view.emb y) = V c main_v28 i
  refine congrArg _ (funext fun a => Fin.ext ?_)
  match a with
  | ⟨0, _⟩ => show win1_1.index t (0 : Fin 2) * 2000 + 1 * (y 0).val = (i 0).val; omega
  | ⟨1, _⟩ => show win1_1.index t (1 : Fin 2) * 256 + 1 * (y 1).val = (i 1).val; omega

/-- Windows 2, 3 and 4 hold their whole arrays at every point. -/
theorem read2 (c : Dev nD) (t : Fin cfg1.N) (y : S256x64.Idx) :
    (iblk1 V c 2 t : Vec Ideal S256x64 .f32) y = (V c main_arg7 : S256x64.Idx → EReal) y := by
  obtain ⟨-, -, -, -, e0, e1, -⟩ := idx_facts t
  show V c main_arg7 (((cfg1.win 2).blk t).view.emb y) = V c main_arg7 y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 64 + 1 * (y 1).val = (y 1).val; omega
theorem read3 (c : Dev nD) (t : Fin cfg1.N) (y : S256x64.Idx) :
    (iblk1 V c 3 t : Vec Ideal S256x64 .f32) y = (V c main_arg8 : S256x64.Idx → EReal) y := by
  obtain ⟨-, -, -, -, -, -, e0, e1, -⟩ := idx_facts t
  show V c main_arg8 (((cfg1.win 3).blk t).view.emb y) = V c main_arg8 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 64 + 1 * (y 1).val = (y 1).val; omega
theorem read4 (c : Dev nD) (t : Fin cfg1.N) (y : S1x64.Idx) :
    (iblk1 V c 4 t : Vec Ideal S1x64 .f32) y = (V c main_v48 : S1x64.Idx → EReal) y := by
  obtain ⟨-, -, -, -, -, -, -, -, e0, e1, -⟩ := idx_facts t
  show V c main_v48 (((cfg1.win 4).blk t).view.emb y) = V c main_v48 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The layer of the arrays the region finds. -/
abbrev whole (c : Dev nD) : Arr 50000 64 :=
  lin (M := 50000) (K := 256) (C := 64) (V c main_v47) (V c main_v28) (V c main_arg7) (V c main_arg8) (V c main_v48)

/-- What point `t` writes back is block `t` of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x64) hz, View.ld_unit_zero (S := S1x64) hz]
  rw [pay_eq]
  obtain ⟨-, -, -, -, -, -, -, -, -, -, e0, e1⟩ := idx_facts t
  funext j
  have hj0 : ((((cfg1.win 5).blk t).view.emb j) 0).val = t.val * 2000 + (j 0).val := by
    show win1_5.index t (0 : Fin 2) * 2000 + 1 * (j 0).val = _; omega
  have hj1 : ((((cfg1.win 5).blk t).view.emb j) 1).val = (j 1).val := by
    show win1_5.index t (1 : Fin 2) * 64 + 1 * (j 1).val = _; omega
  have hc : (((cfg1.win 5).blk t).view.emb j) 1 = j 1 := Fin.ext hj1
  show lin (M := 2000) (K := 256) (C := 64) (iblk1 V c 0 t) (iblk1 V c 1 t) (iblk1 V c 2 t) (iblk1 V c 3 t) (iblk1 V c 4 t) j
    = whole V c (((cfg1.win 5).blk t).view.emb j)
  exact lin_congr (M := 50000) (M' := 2000) (K := 256) (C := 64) (C' := 64)
    (V c main_v47) (V c main_v28) (V c main_arg7) (V c main_arg8) (V c main_v48)
    (iblk1 V c 0 t) (iblk1 V c 1 t) (iblk1 V c 2 t) (iblk1 V c 3 t) (iblk1 V c 4 t) j (((cfg1.win 5).blk t).view.emb j)
    (fun k => read0 V c t (ix2 (j 0) k) (ix2 ((((cfg1.win 5).blk t).view.emb j) 0) k) hj0 rfl)
    (fun k => read1 V c t (ix2 (j 0) k) (ix2 ((((cfg1.win 5).blk t).view.emb j) 0) k) hj0 rfl)
    (fun k => by rw [hc]; exact read2 V c t (ix2 k (j 1)))
    (fun k => by rw [hc]; exact read3 V c t (ix2 k (j 1)))
    (by rw [hc]; exact read4 V c t (ix2 (0 : Fin 1) (j 1)))

/-- An index of the output array is in point `t`'s block iff each coordinate is in the block's range. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v49).slice (win1_5.rect t)).set ↔ _
  rw [View.set_slice_whole, Rect.mem_set_unit]
  exact Iff.rfl

/-- Row `r` of the output is in the block of point `r / 2000`. -/
theorem cover (i : S50000x64.Idx) : ∃ t : Fin cfg1.N, (cfg1.win 5).flush t = true ∧ i ∈ ((cfg1.win 5).blk t).view.set := by
  have hN : grid1.N = 25 := N_1
  have hi0 : (i 0).val < 50000 := (i 0).isLt
  have hi1 : (i 1).val < 64 := (i 1).isLt
  have ht : (i 0).val / 2000 < cfg1.N := by show _ < grid1.N; rw [hN]; omega
  refine ⟨⟨(i 0).val / 2000, ht⟩, flush1_5 _, ?_⟩
  rw [mem_blk]
  obtain ⟨-, -, -, -, -, -, -, -, -, -, e0, e1⟩ := idx_facts ⟨(i 0).val / 2000, ht⟩
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 64 ≤ (i 1).val ∧ (i 1).val < win1_5.index ⟨(i 0).val / 2000, ht⟩ (1 : Fin 2) * 64 + 64
    rw [e1]; omega

/-- The output array after the region: the layer of the arrays the region finds. -/
theorem final (c : Dev nD) : (dat1 V c).arrAt 5 cfg1.N = whole V c :=
  (dat1 V c).arrAt_eq_of_cover 5 (whole V c) (fun t _ => flushed_eq V c t) cover

/-- The same with the arrays the region finds given by name. -/
theorem final_of (c : Dev nD) (b0 b1 : Arr 50000 256) (b2 b3 : Arr 256 64) (b4 : Arr 1 64)
    (h0 : (V c main_v47 : S50000x256.Idx → EReal) = b0) (h1 : (V c main_v28 : S50000x256.Idx → EReal) = b1)
    (h2 : (V c main_arg7 : S256x64.Idx → EReal) = b2) (h3 : (V c main_arg8 : S256x64.Idx → EReal) = b3)
    (h4 : (V c main_v48 : S1x64.Idx → EReal) = b4) :
    (dat1 V c).arrAt 5 cfg1.N = lin (M := 50000) (K := 256) (C := 64) b0 b1 b2 b3 b4 := by
  subst h0 h1 h2 h3 h4
  exact final V c

end Cert.Hand.Region1

end
-- ==== Proof.Walk2.lean ====
/-
  The buffers' contents at the next two segment boundaries: after the second stretch of host operations (the user
  graph's neighbourhood means of the hidden features, the second bias as a row) and after region 1 (its output array at
  the user embeddings).
-/
import proofs.«145416_j38774964748344_1_alg».proof.Proof.Walk1
import proofs.«145416_j38774964748344_1_alg».proof.Proof.Region1
import Idealize.ShloMosaic.Lib.StableHlo.Run

set_option maxRecDepth 16384

noncomputable section

namespace Cert.Hand.Walk

open Cert.KernelIdeal Cert.KernelIdeal.Gen Cert.Hand Cert.Lib.LinLayer Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem L3_v47 : W3 m ρ c (Proc.devRef .tc main_v47) = meanAgg (hidden (m ((c : Thread nD τ).loc main_arg0)) (m ((c : Thread nD τ).loc main_arg2)) (m ((c : Thread nD τ).loc main_arg4)) (m ((c : Thread nD τ).loc main_arg5)) (m ((c : Thread nD τ).loc main_arg6))) (edgeRow0 (m ((c : Thread nD τ).loc main_arg2))) (edgeRow1 (m ((c : Thread nD τ).loc main_arg2))) := by
  show StableHlo.after hostOps1 (W2 m ρ c) (Proc.devRef .tc main_v47) = _
  after_results_simp
  rw [L2_v28 m ρ c, L2_v1 m ρ c, L2_v3 m ρ c]
  rfl
theorem L3_v48 : W3 m ρ c (Proc.devRef .tc main_v48) = biasRow64 (m ((c : Thread nD τ).loc main_arg9)) := by
  show StableHlo.after hostOps1 (W2 m ρ c) (Proc.devRef .tc main_v48) = _
  after_results_simp
  rw [L2_arg9 m ρ c]
  rfl
theorem L3_v28 : W3 m ρ c (Proc.devRef .tc main_v28) = hidden (m ((c : Thread nD τ).loc main_arg0)) (m ((c : Thread nD τ).loc main_arg2)) (m ((c : Thread nD τ).loc main_arg4)) (m ((c : Thread nD τ).loc main_arg5)) (m ((c : Thread nD τ).loc main_arg6)) := by
  show StableHlo.after hostOps1 (W2 m ρ c) (Proc.devRef .tc main_v28) = _
  after_results_simp
  exact L2_v28 m ρ c
theorem L3_v5 : W3 m ρ c (Proc.devRef .tc main_v5) = edgeRow0 (m ((c : Thread nD τ).loc main_arg3)) := by
  show StableHlo.after hostOps1 (W2 m ρ c) (Proc.devRef .tc main_v5) = _
  after_results_simp
  exact L2_v5 m ρ c
theorem L3_v7 : W3 m ρ c (Proc.devRef .tc main_v7) = edgeRow1 (m ((c : Thread nD τ).loc main_arg3)) := by
  show StableHlo.after hostOps1 (W2 m ρ c) (Proc.devRef .tc main_v7) = _
  after_results_simp
  exact L2_v7 m ρ c
theorem L3_arg1 : W3 m ρ c (Proc.devRef .tc main_arg1) = m ((c : Thread nD τ).loc main_arg1) := by
  show StableHlo.after hostOps1 (W2 m ρ c) (Proc.devRef .tc main_arg1) = _
  after_results_simp
  exact L2_arg1 m ρ c
theorem L3_arg7 : W3 m ρ c (Proc.devRef .tc main_arg7) = m ((c : Thread nD τ).loc main_arg7) := by
  show StableHlo.after hostOps1 (W2 m ρ c) (Proc.devRef .tc main_arg7) = _
  after_results_simp
  exact L2_arg7 m ρ c
theorem L3_arg8 : W3 m ρ c (Proc.devRef .tc main_arg8) = m ((c : Thread nD τ).loc main_arg8) := by
  show StableHlo.after hostOps1 (W2 m ρ c) (Proc.devRef .tc main_arg8) = _
  after_results_simp
  exact L2_arg8 m ρ c
theorem L3_arg10 : W3 m ρ c (Proc.devRef .tc main_arg10) = m ((c : Thread nD τ).loc main_arg10) := by
  show StableHlo.after hostOps1 (W2 m ρ c) (Proc.devRef .tc main_arg10) = _
  after_results_simp
  exact L2_arg10 m ρ c
theorem L3_arg11 : W3 m ρ c (Proc.devRef .tc main_arg11) = m ((c : Thread nD τ).loc main_arg11) := by
  show StableHlo.after hostOps1 (W2 m ρ c) (Proc.devRef .tc main_arg11) = _
  after_results_simp
  exact L2_arg11 m ρ c
theorem L3_arg12 : W3 m ρ c (Proc.devRef .tc main_arg12) = m ((c : Thread nD τ).loc main_arg12) := by
  show StableHlo.after hostOps1 (W2 m ρ c) (Proc.devRef .tc main_arg12) = _
  after_results_simp
  exact L2_arg12 m ρ c
theorem L3_arg13 : W3 m ρ c (Proc.devRef .tc main_arg13) = m ((c : Thread nD τ).loc main_arg13) := by
  show StableHlo.after hostOps1 (W2 m ρ c) (Proc.devRef .tc main_arg13) = _
  after_results_simp
  exact L2_arg13 m ρ c
theorem L3_arg14 : W3 m ρ c (Proc.devRef .tc main_arg14) = m ((c : Thread nD τ).loc main_arg14) := by
  show StableHlo.after hostOps1 (W2 m ρ c) (Proc.devRef .tc main_arg14) = _
  after_results_simp
  exact L2_arg14 m ρ c
theorem L3_arg15 : W3 m ρ c (Proc.devRef .tc main_arg15) = m ((c : Thread nD τ).loc main_arg15) := by
  show StableHlo.after hostOps1 (W2 m ρ c) (Proc.devRef .tc main_arg15) = _
  after_results_simp
  exact L2_arg15 m ρ c
theorem L3_arg16 : W3 m ρ c (Proc.devRef .tc main_arg16) = m ((c : Thread nD τ).loc main_arg16) := by
  show StableHlo.after hostOps1 (W2 m ρ c) (Proc.devRef .tc main_arg16) = _
  after_results_simp
  exact L2_arg16 m ρ c
theorem L3_arg17 : W3 m ρ c (Proc.devRef .tc main_arg17) = m ((c : Thread nD τ).loc main_arg17) := by
  show StableHlo.after hostOps1 (W2 m ρ c) (Proc.devRef .tc main_arg17) = _
  after_results_simp
  exact L2_arg17 m ρ c
/-- After region 1 its output array holds the layer of what the region found. -/
theorem L4_v49 : W4 m ρ c (Proc.devRef .tc main_v49) = embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) :=
  (W4_arr m ρ c 5).trans (Cert.Hand.Region1.final_of (V3 m ρ) c _ _ _ _ _
    (L3_v47 m ρ c) (L3_v28 m ρ c) (L3_arg7 m ρ c) (L3_arg8 m ρ c) (L3_v48 m ρ c))
theorem L4_v5 : W4 m ρ c (Proc.devRef .tc main_v5) = edgeRow0 (m ((c : Thread nD τ).loc main_arg3)) :=
  (W4_of_ne m ρ c main_v5 (by decide)).trans (L3_v5 m ρ c)
theorem L4_v7 : W4 m ρ c (Proc.devRef .tc main_v7) = edgeRow1 (m ((c : Thread nD τ).loc main_arg3)) :=
  (W4_of_ne m ρ c main_v7 (by decide)).trans (L3_v7 m ρ c)
theorem L4_arg1 : W4 m ρ c (Proc.devRef .tc main_arg1) = m ((c : Thread nD τ).loc main_arg1) :=
  (W4_of_ne m ρ c main_arg1 (by decide)).trans (L3_arg1 m ρ c)
theorem L4_arg10 : W4 m ρ c (Proc.devRef .tc main_arg10) = m ((c : Thread nD τ).loc main_arg10) :=
  (W4_of_ne m ρ c main_arg10 (by decide)).trans (L3_arg10 m ρ c)
theorem L4_arg11 : W4 m ρ c (Proc.devRef .tc main_arg11) = m ((c : Thread nD τ).loc main_arg11) :=
  (W4_of_ne m ρ c main_arg11 (by decide)).trans (L3_arg11 m ρ c)
theorem L4_arg12 : W4 m ρ c (Proc.devRef .tc main_arg12) = m ((c : Thread nD τ).loc main_arg12) :=
  (W4_of_ne m ρ c main_arg12 (by decide)).trans (L3_arg12 m ρ c)
theorem L4_arg13 : W4 m ρ c (Proc.devRef .tc main_arg13) = m ((c : Thread nD τ).loc main_arg13) :=
  (W4_of_ne m ρ c main_arg13 (by decide)).trans (L3_arg13 m ρ c)
theorem L4_arg14 : W4 m ρ c (Proc.devRef .tc main_arg14) = m ((c : Thread nD τ).loc main_arg14) :=
  (W4_of_ne m ρ c main_arg14 (by decide)).trans (L3_arg14 m ρ c)
theorem L4_arg15 : W4 m ρ c (Proc.devRef .tc main_arg15) = m ((c : Thread nD τ).loc main_arg15) :=
  (W4_of_ne m ρ c main_arg15 (by decide)).trans (L3_arg15 m ρ c)
theorem L4_arg16 : W4 m ρ c (Proc.devRef .tc main_arg16) = m ((c : Thread nD τ).loc main_arg16) :=
  (W4_of_ne m ρ c main_arg16 (by decide)).trans (L3_arg16 m ρ c)
theorem L4_arg17 : W4 m ρ c (Proc.devRef .tc main_arg17) = m ((c : Thread nD τ).loc main_arg17) :=
  (W4_of_ne m ρ c main_arg17 (by decide)).trans (L3_arg17 m ρ c)

end Cert.Hand.Walk

end
-- ==== Proof.Region2.lean ====
/-
  Pipeline 2 (a rectified layer over 25 blocks of 2000 nodes), at any contents `V` of the buffers when the region is
  entered: the array its output window is written back to ends holding the rectified layer of the whole input arrays.

  Point `t` loads rows `2000·t … 2000·t + 1999` of the neighbourhood means and of the features and the whole weight
  matrices and bias row, and writes back the same rows of the result. A row of the layer depends on the same row of
  the two row-blocked inputs only, so each block written back is the block of the layer of the whole arrays, and the
  25 blocks cover the 50000 rows.
-/
import proofs.«145416_j38774964748344_1_alg».proof.Proof.Gen.KernelIdeal.Frame
import proofs.«145416_j38774964748344_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Hand.Region2

open Cert.KernelIdeal Cert.KernelIdeal.Gen Cert.Lib.LinLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the rectified layer of the blocks. -/
theorem pay_eq (x0 x1 : Vec Ideal S2000x256 .f32) (x2 x3 : Vec Ideal S256x256 .f32) (x4 : Vec Ideal S1x256 .f32) :
    k2_pay1 (F := Ideal) x0 x1 x2 x3 x4 = linRelu (M := 2000) (K := 256) (C := 256) x0 x1 x2 x3 x4 := by
  unfold k2_pay1
  dsimp only
  simp only [shapeCast_self]
  exact body_sageRelu (M := 2000) (K := 256) (C := 256) dot_S2000x256_S256x256_S2000x256_1_0_0_1_n_n rfl _ _ x0 x1 x2 x3 x4

/-- The printed index maps over the grid: the two row-blocked inputs and the output are at block row `t`, block
    column 0; the weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `2000·t …` of its array. -/
theorem read0 (c : Dev nD) (t : Fin cfg2.N) (y : S2000x256.Idx) (i : S50000x256.Idx)
    (h0 : (i 0).val = t.val * 2000 + (y 0).val) (h1 : (i 1).val = (y 1).val) :
    (iblk2 V c 0 t : Vec Ideal S2000x256 .f32) y = (V c main_v68 : S50000x256.Idx → EReal) i := by
  obtain ⟨e0, e1, -⟩ := idx_facts t
  show V c main_v68 (((cfg2.win 0).blk t).view.emb y) = V c main_v68 i
  refine congrArg _ (funext fun a => Fin.ext ?_)
  match a with
  | ⟨0, _⟩ => show win2_0.index t (0 : Fin 2) * 2000 + 1 * (y 0).val = (i 0).val; omega
  | ⟨1, _⟩ => show win2_0.index t (1 : Fin 2) * 256 + 1 * (y 1).val = (i 1).val; omega

/-- Window 1's block at point `t` is rows `2000·t …` of its array. -/
theorem read1 (c : Dev nD) (t : Fin cfg2.N) (y : S2000x256.Idx) (i : S50000x256.Idx)
    (h0 : (i 0).val = t.val * 2000 + (y 0).val) (h1 : (i 1).val = (y 1).val) :
    (iblk2 V c 1 t : Vec Ideal S2000x256 .f32) y = (V c main_arg1 : S50000x256.Idx → EReal) i := by
  obtain ⟨-, -, e0, e1, -⟩ := idx_facts t
  show V c main_arg1 (((cfg2.win 1).blk t).view.emb y) = V c main_arg1 i
  refine congrArg _ (funext fun a => Fin.ext ?_)
  match a with
  | ⟨0, _⟩ => show win2_1.index t (0 : Fin 2) * 2000 + 1 * (y 0).val = (i 0).val; omega
  | ⟨1, _⟩ => show win2_1.index t (1 : Fin 2) * 256 + 1 * (y 1).val = (i 1).val; omega

/-- Windows 2, 3 and 4 hold their whole arrays at every point. -/
theorem read2 (c : Dev nD) (t : Fin cfg2.N) (y : S256x256.Idx) :
    (iblk2 V c 2 t : Vec Ideal S256x256 .f32) y = (V c main_arg10 : S256x256.Idx → EReal) y := by
  obtain ⟨-, -, -, -, e0, e1, -⟩ := idx_facts t
  show V c main_arg10 (((cfg2.win 2).blk t).view.emb y) = V c main_arg10 y
  refine congrArg _ (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega
theorem read3 (c : Dev nD) (t : Fin cfg2.N) (y : S256x256.Idx) :
    (iblk2 V c 3 t : Vec Ideal S256x256 .f32) y = (V c main_arg11 : S256x256.Idx → EReal) y := by
  obtain ⟨-, -, -, -, -, -, e0, e1, -⟩ := idx_facts t
  show V c main_arg11 (((cfg2.win 3).blk t).view.emb y) = V c main_arg11 y
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 256 + 1 * (y 1).val = (y 1).val; omega
theorem read4 (c : Dev nD) (t : Fin cfg2.N) (y : S1x256.Idx) :
    (iblk2 V c 4 t : Vec Ideal S1x256 .f32) y = (V c main_v69 : S1x256.Idx → EReal) y := by
  obtain ⟨-, -, -, -, -, -, -, -, e0, e1, -⟩ := idx_facts t
  show V c main_v69 (((cfg2.win 4).blk t).view.emb y) = V c main_v69 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- The rectified layer of the arrays the region finds. -/
abbrev whole (c : Dev nD) : Arr 50000 256 :=
  linRelu (M := 50000) (K := 256) (C := 256) (V c main_v68) (V c main_arg1) (V c main_arg10) (V c main_arg11) (V c main_v69)

/-- What point `t` writes back is block `t` of the rectified layer of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [pay_eq]
  obtain ⟨-, -, -, -, -, -, -, -, -, -, e0, e1⟩ := idx_facts t
  funext j
  have hj0 : ((((cfg2.win 5).blk t).view.emb j) 0).val = t.val * 2000 + (j 0).val := by
    show win2_5.index t (0 : Fin 2) * 2000 + 1 * (j 0).val = _; omega
  have hj1 : ((((cfg2.win 5).blk t).view.emb j) 1).val = (j 1).val := by
    show win2_5.index t (1 : Fin 2) * 256 + 1 * (j 1).val = _; omega
  have hc : (((cfg2.win 5).blk t).view.emb j) 1 = j 1 := Fin.ext hj1
  show linRelu (M := 2000) (K := 256) (C := 256) (iblk2 V c 0 t) (iblk2 V c 1 t) (iblk2 V c 2 t) (iblk2 V c 3 t) (iblk2 V c 4 t) j
    = whole V c (((cfg2.win 5).blk t).view.emb j)
  exact linRelu_congr (M := 50000) (M' := 2000) (K := 256) (C := 256) (C' := 256)
    (V c main_v68) (V c main_arg1) (V c main_arg10) (V c main_arg11) (V c main_v69)
    (iblk2 V c 0 t) (iblk2 V c 1 t) (iblk2 V c 2 t) (iblk2 V c 3 t) (iblk2 V c 4 t) j (((cfg2.win 5).blk t).view.emb j)
    (fun k => read0 V c t (ix2 (j 0) k) (ix2 ((((cfg2.win 5).blk t).view.emb j) 0) k) hj0 rfl)
    (fun k => read1 V c t (ix2 (j 0) k) (ix2 ((((cfg2.win 5).blk t).view.emb j) 0) k) hj0 rfl)
    (fun k => by rw [hc]; exact read2 V c t (ix2 k (j 1)))
    (fun k => by rw [hc]; exact read3 V c t (ix2 k (j 1)))
    (by rw [hc]; exact read4 V c t (ix2 (0 : Fin 1) (j 1)))

/-- An index of the output array is in point `t`'s block iff each coordinate is in the block's range. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v70).slice (win2_5.rect t)).set ↔ _
  rw [View.set_slice_whole, Rect.mem_set_unit]
  exact Iff.rfl

/-- Row `r` of the output is in the block of point `r / 2000`. -/
theorem cover (i : S50000x256.Idx) : ∃ t : Fin cfg2.N, (cfg2.win 5).flush t = true ∧ i ∈ ((cfg2.win 5).blk t).view.set := by
  have hN : grid2.N = 25 := N_2
  have hi0 : (i 0).val < 50000 := (i 0).isLt
  have hi1 : (i 1).val < 256 := (i 1).isLt
  have ht : (i 0).val / 2000 < cfg2.N := by show _ < grid2.N; rw [hN]; omega
  refine ⟨⟨(i 0).val / 2000, ht⟩, flush2_5 _, ?_⟩
  rw [mem_blk]
  obtain ⟨-, -, -, -, -, -, -, -, -, -, e0, e1⟩ := idx_facts ⟨(i 0).val / 2000, ht⟩
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [e1]; omega

/-- The output array after the region: the rectified layer of the arrays the region finds. -/
theorem final (c : Dev nD) : (dat2 V c).arrAt 5 cfg2.N = whole V c :=
  (dat2 V c).arrAt_eq_of_cover 5 (whole V c) (fun t _ => flushed_eq V c t) cover

/-- The same with the arrays the region finds given by name. -/
theorem final_of (c : Dev nD) (b0 b1 : Arr 50000 256) (b2 b3 : Arr 256 256) (b4 : Arr 1 256)
    (h0 : (V c main_v68 : S50000x256.Idx → EReal) = b0) (h1 : (V c main_arg1 : S50000x256.Idx → EReal) = b1)
    (h2 : (V c main_arg10 : S256x256.Idx → EReal) = b2) (h3 : (V c main_arg11 : S256x256.Idx → EReal) = b3)
    (h4 : (V c main_v69 : S1x256.Idx → EReal) = b4) :
    (dat2 V c).arrAt 5 cfg2.N = linRelu (M := 50000) (K := 256) (C := 256) b0 b1 b2 b3 b4 := by
  subst h0 h1 h2 h3 h4
  exact final V c

end Cert.Hand.Region2

end
-- ==== Proof.Walk3.lean ====
/-
  The buffers' contents at the next two segment boundaries: after the third stretch of host operations (the item
  graph's neighbourhood means of the features, its first bias as a row) and after region 2 (its output array at the item
  graph's hidden features).
-/
import proofs.«145416_j38774964748344_1_alg».proof.Proof.Walk2
import proofs.«145416_j38774964748344_1_alg».proof.Proof.Region2
import Idealize.ShloMosaic.Lib.StableHlo.Run

set_option maxRecDepth 16384

noncomputable section

namespace Cert.Hand.Walk

open Cert.KernelIdeal Cert.KernelIdeal.Gen Cert.Hand Cert.Lib.LinLayer Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem L5_v68 : W5 m ρ c (Proc.devRef .tc main_v68) = meanAgg (m ((c : Thread nD τ).loc main_arg1)) (edgeRow0 (m ((c : Thread nD τ).loc main_arg3))) (edgeRow1 (m ((c : Thread nD τ).loc main_arg3))) := by
  show StableHlo.after hostOps2 (W4 m ρ c) (Proc.devRef .tc main_v68) = _
  after_results_simp
  rw [L4_arg1 m ρ c, L4_v5 m ρ c, L4_v7 m ρ c]
  rfl
theorem L5_v69 : W5 m ρ c (Proc.devRef .tc main_v69) = biasRow256 (m ((c : Thread nD τ).loc main_arg12)) := by
  show StableHlo.after hostOps2 (W4 m ρ c) (Proc.devRef .tc main_v69) = _
  after_results_simp
  rw [L4_arg12 m ρ c]
  rfl
theorem L5_v49 : W5 m ρ c (Proc.devRef .tc main_v49) = embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) := by
  show StableHlo.after hostOps2 (W4 m ρ c) (Proc.devRef .tc main_v49) = _
  after_results_simp
  exact L4_v49 m ρ c
theorem L5_v5 : W5 m ρ c (Proc.devRef .tc main_v5) = edgeRow0 (m ((c : Thread nD τ).loc main_arg3)) := by
  show StableHlo.after hostOps2 (W4 m ρ c) (Proc.devRef .tc main_v5) = _
  after_results_simp
  exact L4_v5 m ρ c
theorem L5_v7 : W5 m ρ c (Proc.devRef .tc main_v7) = edgeRow1 (m ((c : Thread nD τ).loc main_arg3)) := by
  show StableHlo.after hostOps2 (W4 m ρ c) (Proc.devRef .tc main_v7) = _
  after_results_simp
  exact L4_v7 m ρ c
theorem L5_arg1 : W5 m ρ c (Proc.devRef .tc main_arg1) = m ((c : Thread nD τ).loc main_arg1) := by
  show StableHlo.after hostOps2 (W4 m ρ c) (Proc.devRef .tc main_arg1) = _
  after_results_simp
  exact L4_arg1 m ρ c
theorem L5_arg10 : W5 m ρ c (Proc.devRef .tc main_arg10) = m ((c : Thread nD τ).loc main_arg10) := by
  show StableHlo.after hostOps2 (W4 m ρ c) (Proc.devRef .tc main_arg10) = _
  after_results_simp
  exact L4_arg10 m ρ c
theorem L5_arg11 : W5 m ρ c (Proc.devRef .tc main_arg11) = m ((c : Thread nD τ).loc main_arg11) := by
  show StableHlo.after hostOps2 (W4 m ρ c) (Proc.devRef .tc main_arg11) = _
  after_results_simp
  exact L4_arg11 m ρ c
theorem L5_arg13 : W5 m ρ c (Proc.devRef .tc main_arg13) = m ((c : Thread nD τ).loc main_arg13) := by
  show StableHlo.after hostOps2 (W4 m ρ c) (Proc.devRef .tc main_arg13) = _
  after_results_simp
  exact L4_arg13 m ρ c
theorem L5_arg14 : W5 m ρ c (Proc.devRef .tc main_arg14) = m ((c : Thread nD τ).loc main_arg14) := by
  show StableHlo.after hostOps2 (W4 m ρ c) (Proc.devRef .tc main_arg14) = _
  after_results_simp
  exact L4_arg14 m ρ c
theorem L5_arg15 : W5 m ρ c (Proc.devRef .tc main_arg15) = m ((c : Thread nD τ).loc main_arg15) := by
  show StableHlo.after hostOps2 (W4 m ρ c) (Proc.devRef .tc main_arg15) = _
  after_results_simp
  exact L4_arg15 m ρ c
theorem L5_arg16 : W5 m ρ c (Proc.devRef .tc main_arg16) = m ((c : Thread nD τ).loc main_arg16) := by
  show StableHlo.after hostOps2 (W4 m ρ c) (Proc.devRef .tc main_arg16) = _
  after_results_simp
  exact L4_arg16 m ρ c
theorem L5_arg17 : W5 m ρ c (Proc.devRef .tc main_arg17) = m ((c : Thread nD τ).loc main_arg17) := by
  show StableHlo.after hostOps2 (W4 m ρ c) (Proc.devRef .tc main_arg17) = _
  after_results_simp
  exact L4_arg17 m ρ c
/-- After region 2 its output array holds the layer of what the region found. -/
theorem L6_v70 : W6 m ρ c (Proc.devRef .tc main_v70) = hidden (m ((c : Thread nD τ).loc main_arg1)) (m ((c : Thread nD τ).loc main_arg3)) (m ((c : Thread nD τ).loc main_arg10)) (m ((c : Thread nD τ).loc main_arg11)) (m ((c : Thread nD τ).loc main_arg12)) :=
  (W6_arr m ρ c 5).trans (Cert.Hand.Region2.final_of (V5 m ρ) c _ _ _ _ _
    (L5_v68 m ρ c) (L5_arg1 m ρ c) (L5_arg10 m ρ c) (L5_arg11 m ρ c) (L5_v69 m ρ c))
theorem L6_v49 : W6 m ρ c (Proc.devRef .tc main_v49) = embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) :=
  (W6_of_ne m ρ c main_v49 (by decide)).trans (L5_v49 m ρ c)
theorem L6_v5 : W6 m ρ c (Proc.devRef .tc main_v5) = edgeRow0 (m ((c : Thread nD τ).loc main_arg3)) :=
  (W6_of_ne m ρ c main_v5 (by decide)).trans (L5_v5 m ρ c)
theorem L6_v7 : W6 m ρ c (Proc.devRef .tc main_v7) = edgeRow1 (m ((c : Thread nD τ).loc main_arg3)) :=
  (W6_of_ne m ρ c main_v7 (by decide)).trans (L5_v7 m ρ c)
theorem L6_arg13 : W6 m ρ c (Proc.devRef .tc main_arg13) = m ((c : Thread nD τ).loc main_arg13) :=
  (W6_of_ne m ρ c main_arg13 (by decide)).trans (L5_arg13 m ρ c)
theorem L6_arg14 : W6 m ρ c (Proc.devRef .tc main_arg14) = m ((c : Thread nD τ).loc main_arg14) :=
  (W6_of_ne m ρ c main_arg14 (by decide)).trans (L5_arg14 m ρ c)
theorem L6_arg15 : W6 m ρ c (Proc.devRef .tc main_arg15) = m ((c : Thread nD τ).loc main_arg15) :=
  (W6_of_ne m ρ c main_arg15 (by decide)).trans (L5_arg15 m ρ c)
theorem L6_arg16 : W6 m ρ c (Proc.devRef .tc main_arg16) = m ((c : Thread nD τ).loc main_arg16) :=
  (W6_of_ne m ρ c main_arg16 (by decide)).trans (L5_arg16 m ρ c)
theorem L6_arg17 : W6 m ρ c (Proc.devRef .tc main_arg17) = m ((c : Thread nD τ).loc main_arg17) :=
  (W6_of_ne m ρ c main_arg17 (by decide)).trans (L5_arg17 m ρ c)

end Cert.Hand.Walk

end
-- ==== Proof.Region3.lean ====
/-
  Pipeline 3 (a layer over 25 blocks of 2000 nodes), at any contents `V` of the buffers when the region is
  entered: the array its output window is written back to ends holding the layer of the whole input arrays.

  Point `t` loads rows `2000·t … 2000·t + 1999` of the neighbourhood means and of the features and the whole weight
  matrices and bias row, and writes back the same rows of the result. A row of the layer depends on the same row of
  the two row-blocked inputs only, so each block written back is the block of the layer of the whole arrays, and the
  25 blocks cover the 50000 rows.
-/
import proofs.«145416_j38774964748344_1_alg».proof.Proof.Gen.KernelIdeal.Frame
import proofs.«145416_j38774964748344_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Hand.Region3

open Cert.KernelIdeal Cert.KernelIdeal.Gen Cert.Lib.LinLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the layer of the blocks. -/
theorem pay_eq (x0 x1 : Vec Ideal S2000x256 .f32) (x2 x3 : Vec Ideal S256x64 .f32) (x4 : Vec Ideal S1x64 .f32) :
    k3_pay1 (F := Ideal) x0 x1 x2 x3 x4 = lin (M := 2000) (K := 256) (C := 64) x0 x1 x2 x3 x4 := by
  unfold k3_pay1
  dsimp only
  simp only [shapeCast_self]
  exact body_sage (M := 2000) (K := 256) (C := 64) dot_S2000x256_S256x64_S2000x64_1_0_0_1_n_n rfl _ _ x0 x1 x2 x3 x4

/-- The printed index maps over the grid: the two row-blocked inputs and the output are at block row `t`, block
    column 0; the weights and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point `t` is rows `2000·t …` of its array. -/
theorem read0 (c : Dev nD) (t : Fin cfg3.N) (y : S2000x256.Idx) (i : S50000x256.Idx)
    (h0 : (i 0).val = t.val * 2000 + (y 0).val) (h1 : (i 1).val = (y 1).val) :
    (iblk3 V c 0 t : Vec Ideal S2000x256 .f32) y = (V c main_v89 : S50000x256.Idx → EReal) i := by
  obtain ⟨e0, e1, -⟩ := idx_facts t
  show V c main_v89 (((cfg3.win 0).blk t).view.emb y) = V c main_v89 i
  refine congrArg _ (funext fun a => Fin.ext ?_)
  match a with
  | ⟨0, _⟩ => show win3_0.index t (0 : Fin 2) * 2000 + 1 * (y 0).val = (i 0).val; omega
  | ⟨1, _⟩ => show win3_0.index t (1 : Fin 2) * 256 + 1 * (y 1).val = (i 1).val; omega

/-- Window 1's block at point `t` is rows `2000·t …` of its array. -/
theorem read1 (c : Dev nD) (t : Fin cfg3.N) (y : S2000x256.Idx) (i : S50000x256.Idx)
    (h0 : (i 0).val = t.val * 2000 + (y 0).val) (h1 : (i 1).val = (y 1).val) :
    (iblk3 V c 1 t : Vec Ideal S2000x256 .f32) y = (V c main_v70 : S50000x256.Idx → EReal) i := by
  obtain ⟨-, -, e0, e1, -⟩ := idx_facts t
  show V c main_v70 (((cfg3.win 1).blk t).view.emb y) = V c main_v70 i
  refine congrArg _ (funext fun a => Fin.ext ?_)
  match a with
  | ⟨0, _⟩ => show win3_1.index t (0 : Fin 2) * 2000 + 1 * (y 0).val = (i 0).val; omega
  | ⟨1, _⟩ => show win3_1.index t (1 : Fin 2) * 256 + 1 * (y 1).val = (i 1).val; omega

/-- Windows 2, 3 and 4 hold their whole arrays at every point. -/
theorem read2 (c : Dev nD) (t : Fin cfg3.N) (y : S256x64.Idx) :
    (iblk3 V c 2 t : Vec Ideal S256x64 .f32) y = (V c main_arg13 : S256x64.Idx → EReal) y := by
  obtain ⟨-, -, -, -, e0, e1, -⟩ := idx_facts t
  show V c main_arg13 (((cfg3.win 2).blk t).view.emb y) = V c main_arg13 y
  refine congrArg _ (funext fun a => Fin.ext ?_)
  match a with
  | ⟨0, _⟩ => show win3_2.index t (0 : Fin 2) * 256 + 1 * (y 0).val = (y 0).val; omega
  | ⟨1, _⟩ => show win3_2.index t (1 : Fin 2) * 64 + 1 * (y 1).val = (y 1).val; omega
theorem read3 (c : Dev nD) (t : Fin cfg3.N) (y : S256x64.Idx) :
    (iblk3 V c 3 t : Vec Ideal S256x64 .f32) y = (V c main_arg14 : S256x64.Idx → EReal) y := by
  obtain ⟨-, -, -, -, -, -, e0, e1, -⟩ := idx_facts t
  show V c main_arg14 (((cfg3.win 3).blk t).view.emb y) = V c main_arg14 y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 64 + 1 * (y 1).val = (y 1).val; omega
theorem read4 (c : Dev nD) (t : Fin cfg3.N) (y : S1x64.Idx) :
    (iblk3 V c 4 t : Vec Ideal S1x64 .f32) y = (V c main_v90 : S1x64.Idx → EReal) y := by
  obtain ⟨-, -, -, -, -, -, -, -, e0, e1, -⟩ := idx_facts t
  show V c main_v90 (((cfg3.win 4).blk t).view.emb y) = V c main_v90 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The layer of the arrays the region finds. -/
abbrev whole (c : Dev nD) : Arr 50000 64 :=
  lin (M := 50000) (K := 256) (C := 64) (V c main_v89) (V c main_v70) (V c main_arg13) (V c main_arg14) (V c main_v90)

/-- What point `t` writes back is block `t` of the layer of the whole arrays. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x64) hz, View.ld_unit_zero (S := S1x64) hz]
  rw [pay_eq]
  obtain ⟨-, -, -, -, -, -, -, -, -, -, e0, e1⟩ := idx_facts t
  funext j
  have hj0 : ((((cfg3.win 5).blk t).view.emb j) 0).val = t.val * 2000 + (j 0).val := by
    show win3_5.index t (0 : Fin 2) * 2000 + 1 * (j 0).val = _; omega
  have hj1 : ((((cfg3.win 5).blk t).view.emb j) 1).val = (j 1).val := by
    show win3_5.index t (1 : Fin 2) * 64 + 1 * (j 1).val = _; omega
  have hc : (((cfg3.win 5).blk t).view.emb j) 1 = j 1 := Fin.ext hj1
  show lin (M := 2000) (K := 256) (C := 64) (iblk3 V c 0 t) (iblk3 V c 1 t) (iblk3 V c 2 t) (iblk3 V c 3 t) (iblk3 V c 4 t) j
    = whole V c (((cfg3.win 5).blk t).view.emb j)
  exact lin_congr (M := 50000) (M' := 2000) (K := 256) (C := 64) (C' := 64)
    (V c main_v89) (V c main_v70) (V c main_arg13) (V c main_arg14) (V c main_v90)
    (iblk3 V c 0 t) (iblk3 V c 1 t) (iblk3 V c 2 t) (iblk3 V c 3 t) (iblk3 V c 4 t) j (((cfg3.win 5).blk t).view.emb j)
    (fun k => read0 V c t (ix2 (j 0) k) (ix2 ((((cfg3.win 5).blk t).view.emb j) 0) k) hj0 rfl)
    (fun k => read1 V c t (ix2 (j 0) k) (ix2 ((((cfg3.win 5).blk t).view.emb j) 0) k) hj0 rfl)
    (fun k => by rw [hc]; exact read2 V c t (ix2 k (j 1)))
    (fun k => by rw [hc]; exact read3 V c t (ix2 k (j 1)))
    (by rw [hc]; exact read4 V c t (ix2 (0 : Fin 1) (j 1)))

/-- An index of the output array is in point `t`'s block iff each coordinate is in the block's range. -/
theorem mem_blk (t : Fin cfg3.N) (i : S50000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v91).slice (win3_5.rect t)).set ↔ _
  rw [View.set_slice_whole, Rect.mem_set_unit]
  exact Iff.rfl

/-- Row `r` of the output is in the block of point `r / 2000`. -/
theorem cover (i : S50000x64.Idx) : ∃ t : Fin cfg3.N, (cfg3.win 5).flush t = true ∧ i ∈ ((cfg3.win 5).blk t).view.set := by
  have hN : grid3.N = 25 := N_3
  have hi0 : (i 0).val < 50000 := (i 0).isLt
  have hi1 : (i 1).val < 64 := (i 1).isLt
  have ht : (i 0).val / 2000 < cfg3.N := by show _ < grid3.N; rw [hN]; omega
  refine ⟨⟨(i 0).val / 2000, ht⟩, flush3_5 _, ?_⟩
  rw [mem_blk]
  obtain ⟨-, -, -, -, -, -, -, -, -, -, e0, e1⟩ := idx_facts ⟨(i 0).val / 2000, ht⟩
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ (1 : Fin 2) * 64 ≤ (i 1).val ∧ (i 1).val < win3_5.index ⟨(i 0).val / 2000, ht⟩ (1 : Fin 2) * 64 + 64
    rw [e1]; omega

/-- The output array after the region: the layer of the arrays the region finds. -/
theorem final (c : Dev nD) : (dat3 V c).arrAt 5 cfg3.N = whole V c :=
  (dat3 V c).arrAt_eq_of_cover 5 (whole V c) (fun t _ => flushed_eq V c t) cover

/-- The same with the arrays the region finds given by name. -/
theorem final_of (c : Dev nD) (b0 b1 : Arr 50000 256) (b2 b3 : Arr 256 64) (b4 : Arr 1 64)
    (h0 : (V c main_v89 : S50000x256.Idx → EReal) = b0) (h1 : (V c main_v70 : S50000x256.Idx → EReal) = b1)
    (h2 : (V c main_arg13 : S256x64.Idx → EReal) = b2) (h3 : (V c main_arg14 : S256x64.Idx → EReal) = b3)
    (h4 : (V c main_v90 : S1x64.Idx → EReal) = b4) :
    (dat3 V c).arrAt 5 cfg3.N = lin (M := 50000) (K := 256) (C := 64) b0 b1 b2 b3 b4 := by
  subst h0 h1 h2 h3 h4
  exact final V c

end Cert.Hand.Region3

end
-- ==== Proof.Walk4.lean ====
/-
  The buffers' contents at the next two segment boundaries: after the fourth stretch of host operations (the item
  graph's neighbourhood means of the hidden features, its second bias as a row) and after region 3 (its output array at
  the item embeddings).
-/
import proofs.«145416_j38774964748344_1_alg».proof.Proof.Walk3
import proofs.«145416_j38774964748344_1_alg».proof.Proof.Region3
import Idealize.ShloMosaic.Lib.StableHlo.Run

set_option maxRecDepth 16384

noncomputable section

namespace Cert.Hand.Walk

open Cert.KernelIdeal Cert.KernelIdeal.Gen Cert.Hand Cert.Lib.LinLayer Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem L7_v89 : W7 m ρ c (Proc.devRef .tc main_v89) = meanAgg (hidden (m ((c : Thread nD τ).loc main_arg1)) (m ((c : Thread nD τ).loc main_arg3)) (m ((c : Thread nD τ).loc main_arg10)) (m ((c : Thread nD τ).loc main_arg11)) (m ((c : Thread nD τ).loc main_arg12))) (edgeRow0 (m ((c : Thread nD τ).loc main_arg3))) (edgeRow1 (m ((c : Thread nD τ).loc main_arg3))) := by
  show StableHlo.after hostOps3 (W6 m ρ c) (Proc.devRef .tc main_v89) = _
  after_results_simp
  rw [L6_v70 m ρ c, L6_v5 m ρ c, L6_v7 m ρ c]
  rfl
theorem L7_v90 : W7 m ρ c (Proc.devRef .tc main_v90) = biasRow64 (m ((c : Thread nD τ).loc main_arg15)) := by
  show StableHlo.after hostOps3 (W6 m ρ c) (Proc.devRef .tc main_v90) = _
  after_results_simp
  rw [L6_arg15 m ρ c]
  rfl
theorem L7_v70 : W7 m ρ c (Proc.devRef .tc main_v70) = hidden (m ((c : Thread nD τ).loc main_arg1)) (m ((c : Thread nD τ).loc main_arg3)) (m ((c : Thread nD τ).loc main_arg10)) (m ((c : Thread nD τ).loc main_arg11)) (m ((c : Thread nD τ).loc main_arg12)) := by
  show StableHlo.after hostOps3 (W6 m ρ c) (Proc.devRef .tc main_v70) = _
  after_results_simp
  exact L6_v70 m ρ c
theorem L7_v49 : W7 m ρ c (Proc.devRef .tc main_v49) = embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) := by
  show StableHlo.after hostOps3 (W6 m ρ c) (Proc.devRef .tc main_v49) = _
  after_results_simp
  exact L6_v49 m ρ c
theorem L7_arg13 : W7 m ρ c (Proc.devRef .tc main_arg13) = m ((c : Thread nD τ).loc main_arg13) := by
  show StableHlo.after hostOps3 (W6 m ρ c) (Proc.devRef .tc main_arg13) = _
  after_results_simp
  exact L6_arg13 m ρ c
theorem L7_arg14 : W7 m ρ c (Proc.devRef .tc main_arg14) = m ((c : Thread nD τ).loc main_arg14) := by
  show StableHlo.after hostOps3 (W6 m ρ c) (Proc.devRef .tc main_arg14) = _
  after_results_simp
  exact L6_arg14 m ρ c
theorem L7_arg16 : W7 m ρ c (Proc.devRef .tc main_arg16) = m ((c : Thread nD τ).loc main_arg16) := by
  show StableHlo.after hostOps3 (W6 m ρ c) (Proc.devRef .tc main_arg16) = _
  after_results_simp
  exact L6_arg16 m ρ c
theorem L7_arg17 : W7 m ρ c (Proc.devRef .tc main_arg17) = m ((c : Thread nD τ).loc main_arg17) := by
  show StableHlo.after hostOps3 (W6 m ρ c) (Proc.devRef .tc main_arg17) = _
  after_results_simp
  exact L6_arg17 m ρ c
/-- After region 3 its output array holds the layer of what the region found. -/
theorem L8_v91 : W8 m ρ c (Proc.devRef .tc main_v91) = embed (hidden (m ((c : Thread nD τ).loc main_arg1)) (m ((c : Thread nD τ).loc main_arg3)) (m ((c : Thread nD τ).loc main_arg10)) (m ((c : Thread nD τ).loc main_arg11)) (m ((c : Thread nD τ).loc main_arg12))) (m ((c : Thread nD τ).loc main_arg3)) (m ((c : Thread nD τ).loc main_arg13)) (m ((c : Thread nD τ).loc main_arg14)) (m ((c : Thread nD τ).loc main_arg15)) :=
  (W8_arr m ρ c 5).trans (Cert.Hand.Region3.final_of (V7 m ρ) c _ _ _ _ _
    (L7_v89 m ρ c) (L7_v70 m ρ c) (L7_arg13 m ρ c) (L7_arg14 m ρ c) (L7_v90 m ρ c))
theorem L8_v49 : W8 m ρ c (Proc.devRef .tc main_v49) = embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) :=
  (W8_of_ne m ρ c main_v49 (by decide)).trans (L7_v49 m ρ c)
theorem L8_arg16 : W8 m ρ c (Proc.devRef .tc main_arg16) = m ((c : Thread nD τ).loc main_arg16) :=
  (W8_of_ne m ρ c main_arg16 (by decide)).trans (L7_arg16 m ρ c)
theorem L8_arg17 : W8 m ρ c (Proc.devRef .tc main_arg17) = m ((c : Thread nD τ).loc main_arg17) :=
  (W8_of_ne m ρ c main_arg17 (by decide)).trans (L7_arg17 m ρ c)

end Cert.Hand.Walk

end
-- ==== Proof.Region4.lean ====
/-
  Pipeline 4 (the scoring head over 25 blocks of 2000 nodes), at any contents `V` of the buffers when the region is
  entered: the array its output window is written back to ends holding the squashed head of the whole input arrays.

  Point `t` loads rows `2000·t … 2000·t + 1999` of the two embeddings and the whole weight columns and bias, and
  writes back the same rows of the scores. A score depends on the same row of the two embeddings only, so each block
  written back is the block of the scores of the whole arrays, and the 25 blocks cover the 50000 rows.
-/
import proofs.«145416_j38774964748344_1_alg».proof.Proof.Gen.KernelIdeal.Frame
import proofs.«145416_j38774964748344_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Hand.Region4

open Cert.KernelIdeal Cert.KernelIdeal.Gen Cert.Lib.LinLayer Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the squashed head of the blocks. -/
theorem pay_eq (x0 x1 : Vec Ideal S2000x64 .f32) (x2 x3 : Vec Ideal S64x1 .f32) (x4 : Vec Ideal S1x1 .f32) :
    k4_pay1 (F := Ideal) x0 x1 x2 x3 x4 = Cert.Sig.sigRows (n := 2000) (c := 1) (headPre (M := 2000) (K := 64) x0 x1 x2 x3) x4 := by
  unfold k4_pay1
  dsimp only
  simp only [shapeCast_self]
  exact body_head (M := 2000) (K := 64) dot_S2000x64_S64x1_S2000x1_1_0_0_1_n_n rfl _ _ x0 x1 x2 x3 x4

/-- The printed index maps over the grid: the two row-blocked inputs and the output are at block row `t`, block
    column 0; the weights and the bias at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point `t` is rows `2000·t …` of its array. -/
theorem read0 (c : Dev nD) (t : Fin cfg4.N) (y : S2000x64.Idx) (i : S50000x64.Idx)
    (h0 : (i 0).val = t.val * 2000 + (y 0).val) (h1 : (i 1).val = (y 1).val) :
    (iblk4 V c 0 t : Vec Ideal S2000x64 .f32) y = (V c main_v49 : S50000x64.Idx → EReal) i := by
  obtain ⟨e0, e1, -⟩ := idx_facts t
  show V c main_v49 (((cfg4.win 0).blk t).view.emb y) = V c main_v49 i
  refine congrArg _ (funext fun a => Fin.ext ?_)
  match a with
  | ⟨0, _⟩ => show win4_0.index t (0 : Fin 2) * 2000 + 1 * (y 0).val = (i 0).val; omega
  | ⟨1, _⟩ => show win4_0.index t (1 : Fin 2) * 64 + 1 * (y 1).val = (i 1).val; omega

/-- Window 1's block at point `t` is rows `2000·t …` of its array. -/
theorem read1 (c : Dev nD) (t : Fin cfg4.N) (y : S2000x64.Idx) (i : S50000x64.Idx)
    (h0 : (i 0).val = t.val * 2000 + (y 0).val) (h1 : (i 1).val = (y 1).val) :
    (iblk4 V c 1 t : Vec Ideal S2000x64 .f32) y = (V c main_v91 : S50000x64.Idx → EReal) i := by
  obtain ⟨-, -, e0, e1, -⟩ := idx_facts t
  show V c main_v91 (((cfg4.win 1).blk t).view.emb y) = V c main_v91 i
  refine congrArg _ (funext fun a => Fin.ext ?_)
  match a with
  | ⟨0, _⟩ => show win4_1.index t (0 : Fin 2) * 2000 + 1 * (y 0).val = (i 0).val; omega
  | ⟨1, _⟩ => show win4_1.index t (1 : Fin 2) * 64 + 1 * (y 1).val = (i 1).val; omega

/-- Windows 2, 3 and 4 hold their whole arrays at every point. -/
theorem read2 (c : Dev nD) (t : Fin cfg4.N) (y : S64x1.Idx) :
    (iblk4 V c 2 t : Vec Ideal S64x1 .f32) y = (V c main_v92 : S64x1.Idx → EReal) y := by
  obtain ⟨-, -, -, -, e0, e1, -⟩ := idx_facts t
  show V c main_v92 (((cfg4.win 2).blk t).view.emb y) = V c main_v92 y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 1 + 1 * (y 1).val = (y 1).val; omega
theorem read3 (c : Dev nD) (t : Fin cfg4.N) (y : S64x1.Idx) :
    (iblk4 V c 3 t : Vec Ideal S64x1 .f32) y = (V c main_v93 : S64x1.Idx → EReal) y := by
  obtain ⟨-, -, -, -, -, -, e0, e1, -⟩ := idx_facts t
  show V c main_v93 (((cfg4.win 3).blk t).view.emb y) = V c main_v93 y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 1 + 1 * (y 1).val = (y 1).val; omega
theorem read4 (c : Dev nD) (t : Fin cfg4.N) (y : S1x1.Idx) :
    (iblk4 V c 4 t : Vec Ideal S1x1 .f32) y = (V c main_v94 : S1x1.Idx → EReal) y := by
  obtain ⟨-, -, -, -, -, -, -, -, e0, e1, -⟩ := idx_facts t
  show V c main_v94 (((cfg4.win 4).blk t).view.emb y) = V c main_v94 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- The squashed head of the arrays the region finds. -/
abbrev whole (c : Dev nD) : Arr 50000 1 :=
  Cert.Sig.sigRows (n := 50000) (c := 1)
    (headPre (M := 50000) (K := 64) (V c main_v49) (V c main_v91) (V c main_v92) (V c main_v93)) (V c main_v94)

/-- What point `t` writes back is block `t` of the scores of the whole arrays. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5]
  unfold out4_5
  rw [View.canon_unit_zero hz]
  simp only [View.ld_unit_zero (S := S2000x64) hz, View.ld_unit_zero (S := S64x1) hz, View.ld_unit_zero (S := S1x1) hz]
  rw [pay_eq]
  obtain ⟨-, -, -, -, -, -, -, -, -, -, e0, e1⟩ := idx_facts t
  funext j
  have hj0 : ((((cfg4.win 5).blk t).view.emb j) 0).val = t.val * 2000 + (j 0).val := by
    show win4_5.index t (0 : Fin 2) * 2000 + 1 * (j 0).val = _; omega
  have hj1 : ((((cfg4.win 5).blk t).view.emb j) 1).val = (j 1).val := by
    show win4_5.index t (1 : Fin 2) * 1 + 1 * (j 1).val = _; omega
  have hc : (((cfg4.win 5).blk t).view.emb j) 1 = j 1 := Fin.ext hj1
  show Cert.Sig.sigRows (n := 2000) (c := 1) (headPre (M := 2000) (K := 64) (iblk4 V c 0 t) (iblk4 V c 1 t) (iblk4 V c 2 t) (iblk4 V c 3 t)) (iblk4 V c 4 t) j
    = whole V c (((cfg4.win 5).blk t).view.emb j)
  exact sigRows_congr (n := 50000) (n' := 2000) (c := 1) (c' := 1)
    (headPre (M := 50000) (K := 64) (V c main_v49) (V c main_v91) (V c main_v92) (V c main_v93)) (V c main_v94)
    (headPre (M := 2000) (K := 64) (iblk4 V c 0 t) (iblk4 V c 1 t) (iblk4 V c 2 t) (iblk4 V c 3 t)) (iblk4 V c 4 t)
    j (((cfg4.win 5).blk t).view.emb j)
    (headPre_congr (M := 50000) (M' := 2000) (K := 64) (V c main_v49) (V c main_v91) (V c main_v92) (V c main_v93)
      (iblk4 V c 0 t) (iblk4 V c 1 t) (iblk4 V c 2 t) (iblk4 V c 3 t) j (((cfg4.win 5).blk t).view.emb j)
      (fun k => read0 V c t (ix2 (j 0) k) (ix2 ((((cfg4.win 5).blk t).view.emb j) 0) k) hj0 rfl)
      (fun k => read1 V c t (ix2 (j 0) k) (ix2 ((((cfg4.win 5).blk t).view.emb j) 0) k) hj0 rfl)
      (fun k => by rw [hc]; exact read2 V c t (ix2 k (j 1)))
      (fun k => by rw [hc]; exact read3 V c t (ix2 k (j 1))))
    (by rw [hc]; exact read4 V c t (ix2 (0 : Fin 1) (j 1)))

/-- An index of the output array is in point `t`'s block iff each coordinate is in the block's range. -/
theorem mem_blk (t : Fin cfg4.N) (i : S50000x1.Idx) :
    i ∈ ((cfg4.win 5).blk t).view.set ↔ ∀ a : Fin 2, win4_5.index t a * S2000x1.size a ≤ (i a).val ∧ (i a).val < win4_5.index t a * S2000x1.size a + S2000x1.size a := by
  show i ∈ ((View.whole main_v95).slice (win4_5.rect t)).set ↔ _
  rw [View.set_slice_whole, Rect.mem_set_unit]
  exact Iff.rfl

/-- Row `r` of the output is in the block of point `r / 2000`. -/
theorem cover (i : S50000x1.Idx) : ∃ t : Fin cfg4.N, (cfg4.win 5).flush t = true ∧ i ∈ ((cfg4.win 5).blk t).view.set := by
  have hN : grid4.N = 25 := N_4
  have hi0 : (i 0).val < 50000 := (i 0).isLt
  have hi1 : (i 1).val < 1 := (i 1).isLt
  have ht : (i 0).val / 2000 < cfg4.N := by show _ < grid4.N; rw [hN]; omega
  refine ⟨⟨(i 0).val / 2000, ht⟩, flush4_5 _, ?_⟩
  rw [mem_blk]
  obtain ⟨-, -, -, -, -, -, -, -, -, -, e0, e1⟩ := idx_facts ⟨(i 0).val / 2000, ht⟩
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 1 ≤ (i 1).val ∧ (i 1).val < win4_5.index ⟨(i 0).val / 2000, ht⟩ (1 : Fin 2) * 1 + 1
    rw [e1]; omega

/-- The output array after the region: the scores of the arrays the region finds. -/
theorem final (c : Dev nD) : (dat4 V c).arrAt 5 cfg4.N = whole V c :=
  (dat4 V c).arrAt_eq_of_cover 5 (whole V c) (fun t _ => flushed_eq V c t) cover

/-- The same with the arrays the region finds given by name. -/
theorem final_of (c : Dev nD) (b0 b1 : Arr 50000 64) (b2 b3 : Arr 64 1) (b4 : Arr 1 1)
    (h0 : (V c main_v49 : S50000x64.Idx → EReal) = b0) (h1 : (V c main_v91 : S50000x64.Idx → EReal) = b1)
    (h2 : (V c main_v92 : S64x1.Idx → EReal) = b2) (h3 : (V c main_v93 : S64x1.Idx → EReal) = b3)
    (h4 : (V c main_v94 : S1x1.Idx → EReal) = b4) :
    (dat4 V c).arrAt 5 cfg4.N = Cert.Sig.sigRows (n := 50000) (c := 1) (headPre (M := 50000) (K := 64) b0 b1 b2 b3) b4 := by
  subst h0 h1 h2 h3 h4
  exact final V c

end Cert.Hand.Region4

end
-- ==== Proof.Walk5.lean ====
/-
  The buffers' contents at the last two segment boundaries: after the fifth stretch of host operations (the two halves
  of the head's weight column, its bias as a 1×1 matrix) and after region 4: the result array holds the scores of the two
  embeddings — the whole program's function of the launch memory.
-/
import proofs.«145416_j38774964748344_1_alg».proof.Proof.Walk4
import proofs.«145416_j38774964748344_1_alg».proof.Proof.Region4
import Idealize.ShloMosaic.Lib.StableHlo.Run

set_option maxRecDepth 16384

noncomputable section

namespace Cert.Hand.Walk

open Cert.KernelIdeal Cert.KernelIdeal.Gen Cert.Hand Cert.Lib.LinLayer Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
theorem L9_v92 : W9 m ρ c (Proc.devRef .tc main_v92) = headLo (m ((c : Thread nD τ).loc main_arg16)) := by
  show StableHlo.after hostOps4 (W8 m ρ c) (Proc.devRef .tc main_v92) = _
  after_results_simp
  rw [L8_arg16 m ρ c]
  rfl
theorem L9_v93 : W9 m ρ c (Proc.devRef .tc main_v93) = headHi (m ((c : Thread nD τ).loc main_arg16)) := by
  show StableHlo.after hostOps4 (W8 m ρ c) (Proc.devRef .tc main_v93) = _
  after_results_simp
  rw [L8_arg16 m ρ c]
  rfl
theorem L9_v94 : W9 m ρ c (Proc.devRef .tc main_v94) = biasRow1 (m ((c : Thread nD τ).loc main_arg17)) := by
  show StableHlo.after hostOps4 (W8 m ρ c) (Proc.devRef .tc main_v94) = _
  after_results_simp
  rw [L8_arg17 m ρ c]
  rfl
theorem L9_v49 : W9 m ρ c (Proc.devRef .tc main_v49) = embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) := by
  show StableHlo.after hostOps4 (W8 m ρ c) (Proc.devRef .tc main_v49) = _
  after_results_simp
  exact L8_v49 m ρ c
theorem L9_v91 : W9 m ρ c (Proc.devRef .tc main_v91) = embed (hidden (m ((c : Thread nD τ).loc main_arg1)) (m ((c : Thread nD τ).loc main_arg3)) (m ((c : Thread nD τ).loc main_arg10)) (m ((c : Thread nD τ).loc main_arg11)) (m ((c : Thread nD τ).loc main_arg12))) (m ((c : Thread nD τ).loc main_arg3)) (m ((c : Thread nD τ).loc main_arg13)) (m ((c : Thread nD τ).loc main_arg14)) (m ((c : Thread nD τ).loc main_arg15)) := by
  show StableHlo.after hostOps4 (W8 m ρ c) (Proc.devRef .tc main_v91) = _
  after_results_simp
  exact L8_v91 m ρ c
/-- The result array at the last boundary: the scores of the two graphs' embeddings. -/
theorem L10_v95 : W10 m ρ c (Proc.devRef .tc main_v95) = scoreOf (embed (hidden (m ((c : Thread nD τ).loc main_arg0)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9))) (embed (hidden (m ((c : Thread nD τ).loc main_arg1)) (m ((c : Thread nD τ).loc main_arg3)) (m ((c : Thread nD τ).loc main_arg10)) (m ((c : Thread nD τ).loc main_arg11)) (m ((c : Thread nD τ).loc main_arg12))) (m ((c : Thread nD τ).loc main_arg3)) (m ((c : Thread nD τ).loc main_arg13)) (m ((c : Thread nD τ).loc main_arg14)) (m ((c : Thread nD τ).loc main_arg15))) (m ((c : Thread nD τ).loc main_arg16)) (m ((c : Thread nD τ).loc main_arg17)) :=
  (W10_arr m ρ c 5).trans (Cert.Hand.Region4.final_of (V9 m ρ) c _ _ _ _ _
    (L9_v49 m ρ c) (L9_v91 m ρ c) (L9_v92 m ρ c) (L9_v93 m ρ c) (L9_v94 m ρ c))

end Cert.Hand.Walk

end
-- ==== Proof.RefSide.lean ====
/-
  The reference's stages, as functions of its argument arrays, are the program's function (Spec.lean), on the
  extended reals.

  The reference computes each graph's neighbourhood means by the same chain of host operations as the kernel's
  program (so they are equal as written), each layer by two `dot_general`s, the sum and the bias vector spread over
  the rows (the layer of SageLayer.lean; the bias spread from a vector is the bias row recast from the vector), the
  rectifier by a maximum with zero, and the score by one `dot_general` of the two embeddings joined side by side with
  the whole weight column — the sum over 128 columns is the sum over the first 64 plus the sum over the last 64 —
  followed by the logistic function spelt out as 1 / (1 + exp(−x)).
-/
import proofs.«145416_j38774964748344_1_alg».proof.Proof.Gen.ReferenceIdeal.Read
import proofs.«145416_j38774964748344_1_alg».proof.Proof.Spec

set_option maxRecDepth 16384

noncomputable section

namespace Cert.Hand.Ref

open Cert.ReferenceIdeal Cert.ReferenceIdeal.Facts₀ Cert.ReferenceIdeal.Facts Cert.ReferenceIdeal.Read
open Idealize.ShloMosaic Idealize.ShloMosaic.ValueIdx Cert.Lib.PlainDot Cert.Lib.LinLayer Cert.Sage

/-! ## The user graph's encoder -/

/-- The neighbourhood means of the features: the same chain of operations. -/
theorem agg1_u (x0 : (⟨S50000x256, .f32⟩ : BufTy).Contents (Elt Ideal)) (x2 : (⟨S2x800000, .i32⟩ : BufTy).Contents (Elt Ideal)) :
    val_main_v26 (F := Ideal) x0 x2 = Cert.Hand.meanAgg x0 (Cert.Hand.edgeRow0 x2) (Cert.Hand.edgeRow1 x2) := rfl

/-- Layer 1. -/
theorem hidden_u (x0 : (⟨S50000x256, .f32⟩ : BufTy).Contents (Elt Ideal)) (x2 : (⟨S2x800000, .i32⟩ : BufTy).Contents (Elt Ideal))
    (x4 x5 : (⟨S256x256, .f32⟩ : BufTy).Contents (Elt Ideal)) (x6 : (⟨S256, .f32⟩ : BufTy).Contents (Elt Ideal)) :
    val_main_v33 (F := Ideal) x0 x2 x4 x5 x6 = Cert.Hand.hidden x0 x2 x4 x5 x6 := by
  unfold val_main_v33 val_main_v32 val_main_v29 val_main_v27 val_main_v28 val_main_v31 val_main_v30 val_main_call0_v0 val_main_call0_cst
  rw [agg1_u, ← row_two_ways (C := 256) x6 Cert.KernelIdeal.Facts₀.shapeCasts_S256_S1x256 bcast_S256_S1x256_1,
    host_sage (M := 50000) (K := 256) (C := 256) dot_S50000x256_S256x256_S50000x256_1_0_0_1_n_n rfl bcast_S1x256_S50000x256_0_1]
  exact host_relu (M := 50000) (C := 256) bcast_S_S50000x256 _

/-- The neighbourhood means of the hidden features: the same chain of operations. -/
theorem agg2_u (x0 : (⟨S50000x256, .f32⟩ : BufTy).Contents (Elt Ideal)) (x2 : (⟨S2x800000, .i32⟩ : BufTy).Contents (Elt Ideal))
    (x4 x5 : (⟨S256x256, .f32⟩ : BufTy).Contents (Elt Ideal)) (x6 : (⟨S256, .f32⟩ : BufTy).Contents (Elt Ideal)) :
    val_main_v52 (F := Ideal) x0 x2 x4 x5 x6
      = Cert.Hand.meanAgg (val_main_v33 (F := Ideal) x0 x2 x4 x5 x6) (Cert.Hand.edgeRow0 x2) (Cert.Hand.edgeRow1 x2) := rfl

/-- Layer 2. -/
theorem embed_u (x0 : (⟨S50000x256, .f32⟩ : BufTy).Contents (Elt Ideal)) (x2 : (⟨S2x800000, .i32⟩ : BufTy).Contents (Elt Ideal))
    (x4 x5 : (⟨S256x256, .f32⟩ : BufTy).Contents (Elt Ideal)) (x6 : (⟨S256, .f32⟩ : BufTy).Contents (Elt Ideal))
    (x7 x8 : (⟨S256x64, .f32⟩ : BufTy).Contents (Elt Ideal)) (x9 : (⟨S64, .f32⟩ : BufTy).Contents (Elt Ideal)) :
    val_main_v58 (F := Ideal) x0 x2 x4 x5 x6 x7 x8 x9 = Cert.Hand.embed (Cert.Hand.hidden x0 x2 x4 x5 x6) x2 x7 x8 x9 := by
  unfold val_main_v58 val_main_v55 val_main_v53 val_main_v54 val_main_v57 val_main_v56
  rw [agg2_u, hidden_u, ← row_two_ways (C := 64) x9 Cert.KernelIdeal.Facts₀.shapeCasts_S64_S1x64 bcast_S64_S1x64_1]
  exact host_sage (M := 50000) (K := 256) (C := 64) dot_S50000x256_S256x64_S50000x64_1_0_0_1_n_n rfl bcast_S1x64_S50000x64_0_1 _ _ x7 x8 _

/-! ## The item graph's encoder -/

theorem agg1_i (x1 : (⟨S50000x256, .f32⟩ : BufTy).Contents (Elt Ideal)) (x3 : (⟨S2x800000, .i32⟩ : BufTy).Contents (Elt Ideal)) :
    val_main_v77 (F := Ideal) x1 x3 = Cert.Hand.meanAgg x1 (Cert.Hand.edgeRow0 x3) (Cert.Hand.edgeRow1 x3) := rfl

theorem hidden_i (x1 : (⟨S50000x256, .f32⟩ : BufTy).Contents (Elt Ideal)) (x3 : (⟨S2x800000, .i32⟩ : BufTy).Contents (Elt Ideal))
    (x10 x11 : (⟨S256x256, .f32⟩ : BufTy).Contents (Elt Ideal)) (x12 : (⟨S256, .f32⟩ : BufTy).Contents (Elt Ideal)) :
    val_main_v84 (F := Ideal) x1 x3 x10 x11 x12 = Cert.Hand.hidden x1 x3 x10 x11 x12 := by
  unfold val_main_v84 val_main_v83 val_main_v80 val_main_v78 val_main_v79 val_main_v82 val_main_v81 val_main_call1_v0 val_main_call1_cst
  rw [agg1_i, ← row_two_ways (C := 256) x12 Cert.KernelIdeal.Facts₀.shapeCasts_S256_S1x256 bcast_S256_S1x256_1,
    host_sage (M := 50000) (K := 256) (C := 256) dot_S50000x256_S256x256_S50000x256_1_0_0_1_n_n rfl bcast_S1x256_S50000x256_0_1]
  exact host_relu (M := 50000) (C := 256) bcast_S_S50000x256 _

theorem agg2_i (x1 : (⟨S50000x256, .f32⟩ : BufTy).Contents (Elt Ideal)) (x3 : (⟨S2x800000, .i32⟩ : BufTy).Contents (Elt Ideal))
    (x10 x11 : (⟨S256x256, .f32⟩ : BufTy).Contents (Elt Ideal)) (x12 : (⟨S256, .f32⟩ : BufTy).Contents (Elt Ideal)) :
    val_main_v103 (F := Ideal) x1 x3 x10 x11 x12
      = Cert.Hand.meanAgg (val_main_v84 (F := Ideal) x1 x3 x10 x11 x12) (Cert.Hand.edgeRow0 x3) (Cert.Hand.edgeRow1 x3) := rfl

theorem embed_i (x1 : (⟨S50000x256, .f32⟩ : BufTy).Contents (Elt Ideal)) (x3 : (⟨S2x800000, .i32⟩ : BufTy).Contents (Elt Ideal))
    (x10 x11 : (⟨S256x256, .f32⟩ : BufTy).Contents (Elt Ideal)) (x12 : (⟨S256, .f32⟩ : BufTy).Contents (Elt Ideal))
    (x13 x14 : (⟨S256x64, .f32⟩ : BufTy).Contents (Elt Ideal)) (x15 : (⟨S64, .f32⟩ : BufTy).Contents (Elt Ideal)) :
    val_main_v109 (F := Ideal) x1 x3 x10 x11 x12 x13 x14 x15 = Cert.Hand.embed (Cert.Hand.hidden x1 x3 x10 x11 x12) x3 x13 x14 x15 := by
  unfold val_main_v109 val_main_v106 val_main_v104 val_main_v105 val_main_v108 val_main_v107
  rw [agg2_i, hidden_i, ← row_two_ways (C := 64) x15 Cert.KernelIdeal.Facts₀.shapeCasts_S64_S1x64 bcast_S64_S1x64_1]
  exact host_sage (M := 50000) (K := 256) (C := 64) dot_S50000x256_S256x64_S50000x64_1_0_0_1_n_n rfl bcast_S1x64_S50000x64_0_1 _ _ x13 x14 _

/-! ## The head -/

/-- The two embeddings joined side by side, projected on the whole weight column, is the sum of each embedding's
    projection on its half of the column. -/
theorem joined_dot (eu ei : FVec Ideal S50000x64 .f32) (w : FVec Ideal S128x1 .f32) :
    Host.dotGeneral (F := Ideal) (φ₁ := .f32) (φ₂ := .f32) dot_S50000x128_S128x1_S50000x1_1_0_0_1_n_n none
        (concatenate S50000x128 1 [⟨S50000x64, eu⟩, ⟨S50000x64, ei⟩] concatenates_S50000x64_S50000x64_S50000x128_d1) w
      = headPre (M := 50000) (K := 64) eu ei (Cert.Hand.headLo w) (Cert.Hand.headHi w) := by
  show FloatOps.dotGeneral dot_S50000x128_S128x1_S50000x1_1_0_0_1_n_n none .single _ w = _
  rw [dotGeneral_eq (M := 50000) (K := 128) (N := 1) dot_S50000x128_S128x1_S50000x1_1_0_0_1_n_n rfl none .single]
  refine rowsByCols_halves (M := 50000) _ w eu ei (Cert.Hand.headLo w) (Cert.Hand.headHi w) (fun p k => ?_) (fun p k => ?_) (fun k q => ?_) (fun k q => ?_)
  · exact concatenate_pair_apply_left (t := S50000x128) (1 : Fin 2) eu ei concatenates_S50000x64_S50000x64_S50000x128_d1
      (ix2 p (Fin.castAdd 64 k)) rfl (ix2 p k) (fun b => by
        match b with
        | ⟨0, _⟩ => rfl
        | ⟨1, _⟩ => rfl)
  · exact concatenate_pair_apply_right (t := S50000x128) (1 : Fin 2) eu ei concatenates_S50000x64_S50000x64_S50000x128_d1
      (ix2 p (Fin.natAdd 64 k)) rfl rfl (ix2 p k) (fun b hb => by
        match b with
        | ⟨0, _⟩ => rfl
        | ⟨1, _⟩ => exact absurd rfl hb) (by show k.val + 64 = 64 + k.val; omega)
  · exact (extractStridedSlice_apply ![0, 0] w _ (ix2 k q) (ix2 (Fin.castAdd 64 k) q) (fun a => by
      match a with
      | ⟨0, _⟩ => show k.val = 0 + k.val; omega
      | ⟨1, _⟩ => show q.val = 0 + q.val; omega)).symm
  · exact (extractStridedSlice_apply ![64, 0] w _ (ix2 k q) (ix2 (Fin.natAdd 64 k) q) (fun a => by
      match a with
      | ⟨0, _⟩ => show 64 + k.val = 64 + k.val; rfl
      | ⟨1, _⟩ => show q.val = 0 + q.val; omega)).symm

/-- The reference's result, as a function of its arguments, is the scores of the two graphs' embeddings. -/
theorem result_eq (x0 x1 : (⟨S50000x256, .f32⟩ : BufTy).Contents (Elt Ideal)) (x2 x3 : (⟨S2x800000, .i32⟩ : BufTy).Contents (Elt Ideal))
    (x4 x5 : (⟨S256x256, .f32⟩ : BufTy).Contents (Elt Ideal)) (x6 : (⟨S256, .f32⟩ : BufTy).Contents (Elt Ideal))
    (x7 x8 : (⟨S256x64, .f32⟩ : BufTy).Contents (Elt Ideal)) (x9 : (⟨S64, .f32⟩ : BufTy).Contents (Elt Ideal))
    (x10 x11 : (⟨S256x256, .f32⟩ : BufTy).Contents (Elt Ideal)) (x12 : (⟨S256, .f32⟩ : BufTy).Contents (Elt Ideal))
    (x13 x14 : (⟨S256x64, .f32⟩ : BufTy).Contents (Elt Ideal)) (x15 : (⟨S64, .f32⟩ : BufTy).Contents (Elt Ideal))
    (x16 : (⟨S128x1, .f32⟩ : BufTy).Contents (Elt Ideal)) (x17 : (⟨S1, .f32⟩ : BufTy).Contents (Elt Ideal)) :
    val_main_v120 (F := Ideal) x0 x1 x2 x3 x4 x5 x6 x7 x8 x9 x10 x11 x12 x13 x14 x15 x16 x17
      = Cert.Hand.scoreOf (Cert.Hand.embed (Cert.Hand.hidden x0 x2 x4 x5 x6) x2 x7 x8 x9)
          (Cert.Hand.embed (Cert.Hand.hidden x1 x3 x10 x11 x12) x3 x13 x14 x15) x16 x17 := by
  unfold val_main_v120 val_main_v119 val_main_v118 val_main_v117 val_main_v116 val_main_v115 val_main_v114 val_main_v113
    val_main_v112 val_main_v111 val_main_v110 val_main_cst_22 val_main_cst_23
  rw [embed_u, embed_i]
  refine (Cert.Sig.sigRows_eq_spelt (n := 50000) (c := 1) _ x17 Cert.KernelIdeal.Facts₀.shapeCasts_S1_S1x1 bcast_S1_S1x1_1
    bcast_S1x1_S50000x1_0_1 bcast_S_S50000x1).symm.trans ?_
  exact congrArg (fun a => Cert.Sig.sigRows (n := 50000) (c := 1) a (Cert.Hand.biasRow1 x17))
    (joined_dot (Cert.Hand.embed (Cert.Hand.hidden x0 x2 x4 x5 x6) x2 x7 x8 x9)
      (Cert.Hand.embed (Cert.Hand.hidden x1 x3 x10 x11 x12) x3 x13 x14 x15) x16)

end Cert.Hand.Ref

end
-- ==== Proof.lean ====
/-
  Two graphs' nodes are encoded by a two-layer GraphSAGE network with mean aggregation and scored by a logistic head;
  the kernel's program computes each linear layer and the head block of 2000 nodes by block of 2000 nodes, the reference
  computes them at once.

  On the extended reals both programs compute one function of the eighteen argument arrays (Spec.lean):
    * the neighbourhood means are the same chain of host operations in both programs;
    * a layer is  agg · Wn + x · Wr + b  (SageLayer.lean): in the kernel two matrix products of a block of rows into
      zero accumulators, in the reference two whole matrix products; a row of the layer depends on the same row of
      `agg` and `x` only, so the 25 blocks written back are the blocks of the whole layer and cover it
      (Region0 … Region3);
    * the head is  logistic (eu · W[0:64] + ei · W[64:128] + b): the reference joins the two embeddings side by side
      and multiplies by the whole column, and a sum over 128 positions is the sum over the first 64 plus the sum over
      the last 64 (Region4, RefSide.lean).
  The kernel's run is read segment by segment from the launch memory (KernelRun.lean, Walk1 … Walk5); the reference's
  run is its generated one. No law used needs the inputs to be finite: only commutativity and associativity of the sum.
-/
import proofs.«145416_j38774964748344_1_alg».proof.Defs
import proofs.«145416_j38774964748344_1_alg».proof.Proof.Gen.Kernel
import proofs.«145416_j38774964748344_1_alg».proof.Proof.Gen.Kernel.Frame
import proofs.«145416_j38774964748344_1_alg».proof.Proof.Gen.KernelIdeal
import proofs.«145416_j38774964748344_1_alg».proof.Proof.Gen.KernelIdeal.Frame
import proofs.«145416_j38774964748344_1_alg».proof.Proof.Gen.ReferenceIdeal
import proofs.«145416_j38774964748344_1_alg».proof.Proof.Gen.Pre_finite_inputs
import proofs.«145416_j38774964748344_1_alg».proof.Proof.Gen.ReferenceIdeal.Run
import proofs.«145416_j38774964748344_1_alg».proof.Proof.Gen.ReferenceIdeal.Read
import proofs.«145416_j38774964748344_1_alg».proof.Proof.KernelRun
import proofs.«145416_j38774964748344_1_alg».proof.Proof.Walk5
import proofs.«145416_j38774964748344_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the scores of the two graphs' embeddings, one function of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.Hand.Walk.L10_v95 m ρ c), (h c).2⟩) (Cert.Hand.KernelRun.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v120_eq, h0, h1, h2, h3, h4, h5, h6, h7, h8, h9, h10, h11, h12, h13, h14, h15, h16, h17]
  exact Cert.Hand.Ref.result_eq _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
